-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S32x1 : S_.BroadcastsInDim S32x1 (![] : Fin 0 → Fin S32x1.rank)
  reducesTo_S32x1_S_d0_1 : S32x1.ReducesTo [0, 1] S_
  bcast_S_S16x32 : S_.BroadcastsInDim S16x32 (![] : Fin 0 → Fin S16x32.rank)
  reducesTo_S16x32_S_d0_1 : S16x32.ReducesTo [0, 1] S_
  bcast_S_S16x1 : S_.BroadcastsInDim S16x1 (![] : Fin 0 → Fin S16x1.rank)
  reducesTo_S16x1_S_d0_1 : S16x1.ReducesTo [0, 1] S_
  bcast_S_S3x16 : S_.BroadcastsInDim S3x16 (![] : Fin 0 → Fin S3x16.rank)
  reducesTo_S3x16_S_d0_1 : S3x16.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg4 : FVec F S16x1 .f32) (main_arg5 : FVec F S3x16 .f32) (main_arg6 : FVec F S3x1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S3x16 .f32 := Host.absf main_arg5
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S3x1 .f32 := Host.absf main_arg6
  let main_cst_10 : FVec F S_ .f32 := constant S_ .f32 0x7F800000#32
  let main_v30 : FVec F S3x1 .f32 := broadcastInDim S3x1 ![] bcast_S_S3x1 main_cst_10
  let main_v31 : IVec S3x1 1 := cmpf .olt main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  main_v33

def fn {F : FTy → Type} [FloatOps F] (main_arg0 : FVec F S1048576x8 .f32) (main_arg1 : FVec F S32x8 .f32) (main_arg2 : FVec F S32x1 .f32) (main_arg3 : FVec F S16x32 .f32) (main_arg4 : FVec F S16x1 .f32) (main_arg5 : FVec F S3x16 .f32) (main_arg6 : FVec F S3x1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_v13 main_v16
-- ==== Kernel.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S8x1048576 : Shape := ⟨2, ![8, 1048576]⟩
abbrev S_ : Shape := ⟨0, ![]⟩
abbrev S1x3 : Shape := ⟨2, ![1, 3]⟩
abbrev S3x1048576 : Shape := ⟨2, ![3, 1048576]⟩
abbrev S8x131072 : Shape := ⟨2, ![8, 131072]⟩
abbrev S3x131072 : Shape := ⟨2, ![3, 131072]⟩
abbrev S8x32768 : Shape := ⟨2, ![8, 32768]⟩
abbrev S32x32768 : Shape := ⟨2, ![32, 32768]⟩
abbrev S16x32768 : Shape := ⟨2, ![16, 32768]⟩
abbrev S3x32768 : Shape := ⟨2, ![3, 32768]⟩
abbrev S32768 : Shape := ⟨1, ![32768]⟩
abbrev S1x32768 : Shape := ⟨2, ![1, 32768]⟩
abbrev S1048576x3 : Shape := ⟨2, ![1048576, 3]⟩

abbrev nBuf : Space → Nat
  | .hbm => 18
  | .vmem => 11
  | .smem => 0
  | _ => 0

abbrev bufTy : (tb : Table) → Fin (tcTables nBuf tb) → BufTy
  | .hbm, ⟨0, _⟩ => ⟨S1048576x8, .f32⟩
  | .hbm, ⟨1, _⟩ => ⟨S32x8, .f32⟩
  | .hbm, ⟨2, _⟩ => ⟨S32x1, .f32⟩
  | .hbm, ⟨3, _⟩ => ⟨S16x32, .f32⟩
  | .hbm, ⟨4, _⟩ => ⟨S16x1, .f32⟩
  | .hbm, ⟨5, _⟩ => ⟨S3x16, .f32⟩
  | .hbm, ⟨6, _⟩ => ⟨S3x1, .f32⟩
  | .hbm, ⟨7, _⟩ => ⟨S8x1048576, .f32⟩
  | .hbm, ⟨8, _⟩ => ⟨S16x1, .f32⟩
  | .hbm, ⟨9, _⟩ => ⟨S16x1, .f32⟩
  | .hbm, ⟨10, _⟩ => ⟨S3x1, .f32⟩
  | .hbm, ⟨11, _⟩ => ⟨S3x1, .f32⟩
  | .hbm, ⟨12, _⟩ => ⟨S_, .f32⟩
  | .hbm, ⟨13, _⟩ => ⟨S1x3, .f32⟩
  | .hbm, ⟨14, _⟩ => ⟨S32x1, .f32⟩
  | .hbm, ⟨15, _⟩ => ⟨S16x1, .f32⟩
  | .hbm, ⟨16, _⟩ => ⟨S3x1048576, .f32⟩
  | .hbm, ⟨17, _⟩ => ⟨S1048576x3, .f32⟩
  | .local _ .vmem, ⟨0, _⟩ => ⟨S8x131072, .f32⟩
  | .local _ .vmem, ⟨1, _⟩ => ⟨S8x131072, .f32⟩
  | .local _ .vmem, ⟨2, _⟩ => ⟨S32x8, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S3x16, .f32⟩
  | .local _ .vmem, ⟨7, _⟩ => ⟨S3x1, .f32⟩
  | .local _ .vmem, ⟨8, _⟩ => ⟨S1x3, .f32⟩
  | .local _ .vmem, ⟨9, _⟩ => ⟨S3x131072, .f32⟩
  | .local _ .vmem, ⟨10, _⟩ => ⟨S3x131072, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x131072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1048576x8_S8x1048576_1_0 : S1048576x8.Transposes [1, 0] S8x1048576
  bcast_S_S1x3 : S_.BroadcastsInDim S1x3 (![] : Fin 0 → Fin S1x3.rank)
  inb_S8x131072_S8x32768_0_0 : ∀ a, (![0, 0] : Fin 2 → Nat) a + S8x32768.size a ≤ S8x131072.size a
  h_S8x32768 : 0 < S8x32768.numel
  shapeCasts_S8x32768_S8x32768 : S8x32768.ShapeCasts S8x32768
  inb_S32x8_S32x8_0_0 : ∀ a, (![0, 0] : Fin 2 → Nat) a + S32x8.size a ≤ S32x8.size a
  h_S32x8 : 0 < S32x8.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x32768 : S16x1.Broadcasts S16x32768
  inb_S3x16_S3x16_0_0 : ∀ a, (![0, 0] : Fin 2 → Nat) a + S3x16.size a ≤ S3x16.size a
  h_S3x16 : 0 < S3x16.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  reduces_S3x32768_S32768 : S3x32768.Reduces [0] S32768
  shapeCasts_S32768_S1x32768 : S32768.ShapeCasts S1x32768
  broadcasts_S1x32768_S3x32768 : S1x32768.Broadcasts S3x32768
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S3x131072_S3x32768_0_0 : ∀ a, (![0, 0] : Fin 2 → Nat) a + S3x32768.size a ≤ S3x131072.size a
  h_S3x32768 : 0 < S3x32768.numel
  inb_S8x131072_S8x32768_0_32768 : ∀ a, (![0, 32768] : Fin 2 → Nat) a + S8x32768.size a ≤ S8x131072.size a
  inb_S3x131072_S3x32768_0_32768 : ∀ a, (![0, 32768] : Fin 2 → Nat) a + S3x32768.size a ≤ S3x131072.size a
  inb_S8x131072_S8x32768_0_65536 : ∀ a, (![0, 65536] : Fin 2 → Nat) a + S8x32768.size a ≤ S8x131072.size a
  inb_S3x131072_S3x32768_0_65536 : ∀ a, (![0, 65536] : Fin 2 → Nat) a + S3x32768.size a ≤ S3x131072.size a
  inb_S8x131072_S8x32768_0_98304 : ∀ a, (![0, 98304] : Fin 2 → Nat) a + S8x32768.size a ≤ S8x131072.size a
  inb_S3x131072_S3x32768_0_98304 : ∀ a, (![0, 98304] : Fin 2 → Nat) a + S3x32768.size a ≤ S3x131072.size a
  transposes_S3x1048576_S1048576x3_1_0 : S3x1048576.Transposes [1, 0] S1048576x3
  dot_S16x32_S32x1_S16x1_1_0_0_1_n_n_wf : DotDims.WF S16x32 S32x1 S16x1 [1] [0] [0] [1] [] []
  dot_S3x16_S16x1_S3x1_1_0_0_1_n_n_wf : DotDims.WF S3x16 S16x1 S3x1 [1] [0] [0] [1] [] []
  dot_S32x8_S8x32768_S32x32768_1_0_0_1_n_n_wf : DotDims.WF S32x8 S8x32768 S32x32768 [1] [0] [0] [1] [] []
  dot_S16x32_S32x32768_S16x32768_1_0_0_1_n_n_wf : DotDims.WF S16x32 S32x32768 S16x32768 [1] [0] [0] [1] [] []
  dot_S3x16_S16x32768_S3x32768_1_0_0_1_n_n_wf : DotDims.WF S3x16 S16x32768 S3x32768 [1] [0] [0] [1] [] []
  dot_S1x3_S3x32768_S1x32768_1_0_0_1_n_n_wf : DotDims.WF S1x3 S3x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x1048576.size a
  hwx0_0 : ∀ i : grid0.Coords, EltTy.bits .f32 = 32 ∨ (Rect.block (s := S8x1048576) S8x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3x131072.size a ≤ S3x1048576.size a
  hwx0_8 : ∀ i : grid0.Coords, EltTy.bits .f32 = 32 ∨ (Rect.block (s := S3x1048576) S3x131072.size (cc0_transform_8 i) (hinb0_8 i)).WholeWords (EltTy.packing .f32)

variable [Facts₀]

def dot_S16x32_S32x1_S16x1_1_0_0_1_n_n : DotDims S16x32 S32x1 S16x1 where
  lhsContracting := [1]
  rhsContracting := [0]
  lhsNonContracting := [0]
  rhsNonContracting := [1]
  lhsBatch := []
  rhsBatch := []
  wf := dot_S16x32_S32x1_S16x1_1_0_0_1_n_n_wf
def dot_S3x16_S16x1_S3x1_1_0_0_1_n_n : DotDims S3x16 S16x1 S3x1 where
  lhsContracting := [1]
  rhsContracting := [0]
  lhsNonContracting := [0]
  rhsNonContracting := [1]
  lhsBatch := []
  rhsBatch := []
  wf := dot_S3x16_S16x1_S3x1_1_0_0_1_n_n_wf
def dot_S32x8_S8x32768_S32x32768_1_0_0_1_n_n : DotDims S32x8 S8x32768 S32x32768 where
  lhsContracting := [1]
  rhsContracting := [0]
  lhsNonContracting := [0]
  rhsNonContracting := [1]
  lhsBatch := []
  rhsBatch := []
  wf := dot_S32x8_S8x32768_S32x32768_1_0_0_1_n_n_wf
def dot_S16x32_S32x32768_S16x32768_1_0_0_1_n_n : DotDims S16x32 S32x32768 S16x32768 where
  lhsContracting := [1]
  rhsContracting := [0]
  lhsNonContracting := [0]
  rhsNonContracting := [1]
  lhsBatch := []
  rhsBatch := []
  wf := dot_S16x32_S32x32768_S16x32768_1_0_0_1_n_n_wf
def dot_S3x16_S16x32768_S3x32768_1_0_0_1_n_n : DotDims S3x16 S16x32768 S3x32768 where
  lhsContracting := [1]
  rhsContracting := [0]
  lhsNonContracting := [0]
  rhsNonContracting := [1]
  lhsBatch := []
  rhsBatch := []
  wf := dot_S3x16_S16x32768_S3x32768_1_0_0_1_n_n_wf
def dot_S1x3_S3x32768_S1x32768_1_0_0_1_n_n : DotDims S1x3 S3x32768 S1x32768 where
  lhsContracting := [1]
  rhsContracting := [0]
  lhsNonContracting := [0]
  rhsNonContracting := [1]
  lhsBatch := []
  rhsBatch := []
  wf := dot_S1x3_S3x32768_S1x32768_1_0_0_1_n_n_wf

abbrev win0_0 : Pipeline.Window sig grid0 :=
  Pipeline.Window.ofSpec (Memref.whole main_v0) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S3x131072.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S3x1048576 : Shape := ⟨2, ![3, 1048576]⟩
abbrev S8192x8 : Shape := ⟨2, ![8192, 8]⟩
abbrev S3x8192 : Shape := ⟨2, ![3, 8192]⟩
abbrev S32x8192 : Shape := ⟨2, ![32, 8192]⟩
abbrev S16x8192 : Shape := ⟨2, ![16, 8192]⟩
abbrev S8192 : Shape := ⟨1, ![8192]⟩
abbrev S1x8192 : Shape := ⟨2, ![1, 8192]⟩
abbrev S1048576x3 : Shape := ⟨2, ![1048576, 3]⟩

abbrev nBuf : Space → Nat
  | .hbm => 9
  | .vmem => 10
  | .smem => 0
  | _ => 0

abbrev bufTy : (tb : Table) → Fin (tcTables nBuf tb) → BufTy
  | .hbm, ⟨0, _⟩ => ⟨S1048576x8, .f32⟩
  | .hbm, ⟨1, _⟩ => ⟨S32x8, .f32⟩
  | .hbm, ⟨2, _⟩ => ⟨S32x1, .f32⟩
  | .hbm, ⟨3, _⟩ => ⟨S16x32, .f32⟩
  | .hbm, ⟨4, _⟩ => ⟨S16x1, .f32⟩
  | .hbm, ⟨5, _⟩ => ⟨S3x16, .f32⟩
  | .hbm, ⟨6, _⟩ => ⟨S3x1, .f32⟩
  | .hbm, ⟨7, _⟩ => ⟨S3x1048576, .f32⟩
  | .hbm, ⟨8, _⟩ => ⟨S1048576x3, .f32⟩
  | .local _ .vmem, ⟨0, _⟩ => ⟨S8192x8, .f32⟩
  | .local _ .vmem, ⟨1, _⟩ => ⟨S8192x8, .f32⟩
  | .local _ .vmem, ⟨2, _⟩ => ⟨S32x8, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S3x16, .f32⟩
  | .local _ .vmem, ⟨7, _⟩ => ⟨S3x1, .f32⟩
  | .local _ .vmem, ⟨8, _⟩ => ⟨S3x8192, .f32⟩
  | .local _ .vmem, ⟨9, _⟩ => ⟨S3x8192, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  inb_S32x8_S32x8_0_0 : ∀ a, (![0, 0] : Fin 2 → Nat) a + S32x8.size a ≤ S32x8.size a
  h_S32x8 : 0 < S32x8.numel
  inb_S32x1_S32x1_0_0 : ∀ a, (![0, 0] : Fin 2 → Nat) a + S32x1.size a ≤ S32x1.size a
  h_S32x1 : 0 < S32x1.numel
  broadcasts_S32x1_S32x8192 : S32x1.Broadcasts S32x8192
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  broadcasts_S16x1_S16x8192 : S16x1.Broadcasts S16x8192
  inb_S3x16_S3x16_0_0 : ∀ a, (![0, 0] : Fin 2 → Nat) a + S3x16.size a ≤ S3x16.size a
  h_S3x16 : 0 < S3x16.numel
  inb_S3x1_S3x1_0_0 : ∀ a, (![0, 0] : Fin 2 → Nat) a + S3x1.size a ≤ S3x1.size a
  h_S3x1 : 0 < S3x1.numel
  broadcasts_S3x1_S3x8192 : S3x1.Broadcasts S3x8192
  reduces_S3x8192_S8192 : S3x8192.Reduces [0] S8192
  shapeCasts_S8192_S1x8192 : S8192.ShapeCasts S1x8192
  broadcasts_S1x8192_S3x8192 : S1x8192.Broadcasts S3x8192
  inb_S3x8192_S3x8192_0_0 : ∀ a, (![0, 0] : Fin 2 → Nat) a + S3x8192.size a ≤ S3x8192.size a
  h_S3x8192 : 0 < S3x8192.numel
  transposes_S3x1048576_S1048576x3_1_0 : S3x1048576.Transposes [1, 0] S1048576x3
  dot_S32x8_S8192x8_S32x8192_1_1_0_0_n_n_wf : DotDims.WF S32x8 S8192x8 S32x8192 [1] [1] [0] [0] [] []
  dot_S16x32_S32x8192_S16x8192_1_0_0_1_n_n_wf : DotDims.WF S16x32 S32x8192 S16x8192 [1] [0] [0] [1] [] []
  dot_S3x16_S16x8192_S3x8192_1_0_0_1_n_n_wf : DotDims.WF S3x16 S16x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1048576x8.size a
  hwx0_0 : ∀ i : grid0.Coords, EltTy.bits .f32 = 32 ∨ (Rect.block (s := S1048576x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x1048576.size a
  hwx0_7 : ∀ i : grid0.Coords, EltTy.bits .f32 = 32 ∨ (Rect.block (s := S3x1048576) S3x8192.size (cc0_transform_7 i) (hinb0_7 i)).WholeWords (EltTy.packing .f32)

variable [Facts₀]

def dot_S32x8_S8192x8_S32x8192_1_1_0_0_n_n : DotDims S32x8 S8192x8 S32x8192 where
  lhsContracting := [1]
  rhsContracting := [1]
  lhsNonContracting := [0]
  rhsNonContracting := [0]
  lhsBatch := []
  rhsBatch := []
  wf := dot_S32x8_S8192x8_S32x8192_1_1_0_0_n_n_wf
def dot_S16x32_S32x8192_S16x8192_1_0_0_1_n_n : DotDims S16x32 S32x8192 S16x8192 where
  lhsContracting := [1]
  rhsContracting := [0]
  lhsNonContracting := [0]
  rhsNonContracting := [1]
  lhsBatch := []
  rhsBatch := []
  wf := dot_S16x32_S32x8192_S16x8192_1_0_0_1_n_n_wf
def dot_S3x16_S16x8192_S3x8192_1_0_0_1_n_n : DotDims S3x16 S16x8192 S3x8192 where
  lhsContracting := [1]
  rhsContracting := [0]
  lhsNonContracting := [0]
  rhsNonContracting := [1]
  lhsBatch := []
  rhsBatch := []
  wf := dot_S3x16_S16x8192_S3x8192_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.MlpSpec.lean ====
/-
  The function both programs compute, stated once over the extended reals with no program in sight.

  One input row `x ∈ ℝ⁸` goes through three affine layers with a rectifier after the first two,
      h₁ = max (W₁ x + b₁) 0,   h₂ = max (W₂ h₁ + b₂) 0,   ℓ = W₃ h₂ + b₃  ∈ ℝ³,
  and the three logits through a log-softmax taken with the row maximum subtracted first:
      out c = (ℓ c - M) - log (∑ c', exp (ℓ c' - M)),   M = max over the three logits.

  The second program evaluates the same logits with the biases moved: since `max (s + b) 0 = max s (-b) + b`,
  the rectified layer is `u + b` with `u = max s (-b)`, and an affine map applied to `u + b` is the same map applied
  to `u` with `W b` added to its bias.  Carried through both hidden layers this gives
      u₁ = max (W₁ x) (-b₁),  b₂' = W₂ b₁ + b₂,  u₂ = max (W₂ u₁) (-b₂'),  b₃' = W₃ b₂' + b₃,  ℓ = W₃ u₂ + b₃'.
  Distributing a product over a sum is a law of the reals, not of the extended reals, so the equality is proved for
  real entries (`logits_folded`) — which is where the finiteness of the inputs is used.
-/
import Idealize.ShloMosaic.PureOps.Ideal
import Idealize.ShloMosaic.PureOps.Ideal.Laws
import Idealize.ShloMosaic.Lib.ValueIdx

noncomputable section

namespace Cert.MlpSpec

open Idealize.ShloMosaic Idealize.ShloMosaic.ValueIdx

/-! ## The layers, over any row of extended reals -/

/-- A rectified affine layer: `max (∑ i, w j i * x i + b j) 0`. -/
def rectAffine {n k : ℕ} (w : Fin k → Fin n → EReal) (b : Fin k → EReal) (x : Fin n → EReal) (j : Fin k) : EReal :=
  max ((∑ i, w j i * x i) + b j) 0

/-- An affine layer: `∑ i, w j i * x i + b j`. -/
def affine {n k : ℕ} (w : Fin k → Fin n → EReal) (b : Fin k → EReal) (x : Fin n → EReal) (j : Fin k) : EReal :=
  (∑ i, w j i * x i) + b j

/-- A linear layer cut off from below by a given floor: `max (∑ i, w j i * x i) (floor j)`. -/
def floorLinear {n k : ℕ} (w : Fin k → Fin n → EReal) (floor : Fin k → EReal) (x : Fin n → EReal) (j : Fin k) : EReal :=
  max (∑ i, w j i * x i) (floor j)

/-! ## The log-softmax of three logits -/

/-- The largest of the three logits, as a fold of `max` from the pattern of `-∞`. -/
def rowMax (lg : Fin 3 → EReal) : EReal :=
  (Finset.univ : Finset (Fin 3)).fold max (Ideal.ofBits .f32 0xFF800000#32) lg

/-- A logit with the row maximum subtracted. -/
def shifted (lg : Fin 3 → EReal) (c : Fin 3) : EReal := lg c - rowMax lg

/-- The log-softmax with the exponentials weighted by `wt` before they are summed. -/
def logSoftmaxW (wt : Fin 3 → EReal) (lg : Fin 3 → EReal) (c : Fin 3) : EReal :=
  shifted lg c - Ideal.log (∑ k : Fin 3, wt k * Ideal.exp (shifted lg k))

/-- The log-softmax. -/
def logSoftmax (lg : Fin 3 → EReal) (c : Fin 3) : EReal :=
  shifted lg c - Ideal.log (∑ k : Fin 3, Ideal.exp (shifted lg k))

/-- Unit weights change nothing. -/
theorem logSoftmaxW_one (wt : Fin 3 → EReal) (h : ∀ k, wt k = 1) (lg : Fin 3 → EReal) (c : Fin 3) :
    logSoftmaxW wt lg c = logSoftmax lg c := by
  unfold logSoftmaxW logSoftmax
  simp only [h, one_mul]

/-! ## The whole function of the seven arrays -/

/-- The entry `(c, r)` of the result: the log-softmax of row `r`'s logits, at class `c`. -/
def entry (x : (⟨2, ![1048576, 8]⟩ : Shape).Idx → EReal) (w1 : (⟨2, ![32, 8]⟩ : Shape).Idx → EReal)
    (b1 : (⟨2, ![32, 1]⟩ : Shape).Idx → EReal) (w2 : (⟨2, ![16, 32]⟩ : Shape).Idx → EReal)
    (b2 : (⟨2, ![16, 1]⟩ : Shape).Idx → EReal) (w3 : (⟨2, ![3, 16]⟩ : Shape).Idx → EReal)
    (b3 : (⟨2, ![3, 1]⟩ : Shape).Idx → EReal) (c : Fin 3) (r : Fin 1048576) : EReal :=
  logSoftmax
    (affine (fun c k => w3 (ix2 c k)) (fun c => b3 (ix2 c (0 : Fin 1)))
      (rectAffine (fun k j => w2 (ix2 k j)) (fun k => b2 (ix2 k (0 : Fin 1)))
        (rectAffine (fun j i => w1 (ix2 j i)) (fun j => b1 (ix2 j (0 : Fin 1))) (fun i => x (ix2 r i))))) c

/-- The result as a `[3, 1048576]` array (classes by rows, one column per input row). -/
def classesByRows (x : (⟨2, ![1048576, 8]⟩ : Shape).Idx → EReal) (w1 : (⟨2, ![32, 8]⟩ : Shape).Idx → EReal)
    (b1 : (⟨2, ![32, 1]⟩ : Shape).Idx → EReal) (w2 : (⟨2, ![16, 32]⟩ : Shape).Idx → EReal)
    (b2 : (⟨2, ![16, 1]⟩ : Shape).Idx → EReal) (w3 : (⟨2, ![3, 16]⟩ : Shape).Idx → EReal)
    (b3 : (⟨2, ![3, 1]⟩ : Shape).Idx → EReal) : (⟨2, ![3, 1048576]⟩ : Shape).Idx → EReal :=
  fun idx => entry x w1 b1 w2 b2 w3 b3 (idx 0) (idx 1)

/-! ## Moving the biases, over the reals -/

/-- A finite sum of real numbers, read in the extended reals. -/
@[norm_cast] theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The larger of two real numbers, read in the extended reals. -/
theorem coe_max (a b : ℝ) : ((max a b : ℝ) : EReal) = max (a : EReal) (b : EReal) :=
  EReal.coe_strictMono.monotone.map_max

/-- A rectifier after a shift is a cut-off from below before it. -/
theorem rect_shift (s b : ℝ) : max (s + b) 0 = max s (-b) + b := by
  rw [← max_add_add_right, neg_add_cancel]

/-- An affine map of a shifted vector is the same map of the vector with the shift's image added to the bias. -/
theorem affine_shift {n : ℕ} (w u b : Fin n → ℝ) (b' : ℝ) :
    (∑ j, w j * (u j + b j)) + b' = (∑ j, w j * u j) + ((∑ j, w j * b j) + b') := by
  simp only [mul_add, Finset.sum_add_distrib, add_assoc]

/-- The three layers over the reals. -/
def rectAffineR {n k : ℕ} (w : Fin k → Fin n → ℝ) (b : Fin k → ℝ) (x : Fin n → ℝ) (j : Fin k) : ℝ :=
  max ((∑ i, w j i * x i) + b j) 0
def affineR {n k : ℕ} (w : Fin k → Fin n → ℝ) (b : Fin k → ℝ) (x : Fin n → ℝ) (j : Fin k) : ℝ :=
  (∑ i, w j i * x i) + b j
def floorLinearR {n k : ℕ} (w : Fin k → Fin n → ℝ) (floor : Fin k → ℝ) (x : Fin n → ℝ) (j : Fin k) : ℝ :=
  max (∑ i, w j i * x i) (floor j)

/-- On real entries each layer is the real layer, read in the extended reals. -/
theorem rectAffine_coe {n k : ℕ} (w : Fin k → Fin n → ℝ) (b : Fin k → ℝ) (x : Fin n → ℝ) :
    rectAffine (fun j i => (w j i : EReal)) (fun j => (b j : EReal)) (fun i => (x i : EReal))
      = fun j => ((rectAffineR w b x j : ℝ) : EReal) := by
  funext j
  show max ((∑ i, (w j i : EReal) * (x i : EReal)) + (b j : EReal)) 0 = _
  unfold rectAffineR
  rw [coe_max, EReal.coe_add, coe_sum, EReal.coe_zero]
  simp only [EReal.coe_mul]
theorem affine_coe {n k : ℕ} (w : Fin k → Fin n → ℝ) (b : Fin k → ℝ) (x : Fin n → ℝ) :
    affine (fun j i => (w j i : EReal)) (fun j => (b j : EReal)) (fun i => (x i : EReal))
      = fun j => ((affineR w b x j : ℝ) : EReal) := by
  funext j
  show (∑ i, (w j i : EReal) * (x i : EReal)) + (b j : EReal) = _
  unfold affineR
  rw [EReal.coe_add, coe_sum]
  simp only [EReal.coe_mul]
theorem floorLinear_coe {n k : ℕ} (w : Fin k → Fin n → ℝ) (fl : Fin k → ℝ) (x : Fin n → ℝ) :
    floorLinear (fun j i => (w j i : EReal)) (fun j => (fl j : EReal)) (fun i => (x i : EReal))
      = fun j => ((floorLinearR w fl x j : ℝ) : EReal) := by
  funext j
  show max (∑ i, (w j i : EReal) * (x i : EReal)) (fl j : EReal) = _
  unfold floorLinearR
  rw [coe_max, coe_sum]
  simp only [EReal.coe_mul]

/-- The logits with the biases moved into the next layer, over the reals. -/
theorem logits_foldedR (w1 : Fin 32 → Fin 8 → ℝ) (b1 : Fin 32 → ℝ) (w2 : Fin 16 → Fin 32 → ℝ) (b2 : Fin 16 → ℝ)
    (w3 : Fin 3 → Fin 16 → ℝ) (b3 : Fin 3 → ℝ) (x : Fin 8 → ℝ) (c : Fin 3) :
    affineR w3 b3 (rectAffineR w2 b2 (rectAffineR w1 b1 x)) c
    = affineR w3 (affineR w3 b3 (affineR w2 b2 b1))
        (floorLinearR w2 (fun k => -(affineR w2 b2 b1 k)) (floorLinearR w1 (fun j => -(b1 j)) x)) c := by
  unfold affineR rectAffineR floorLinearR
  simp only [rect_shift, affine_shift]

/-- The same for real weights, biases and inputs read in the extended reals. -/
theorem logits_folded (w1 : Fin 32 → Fin 8 → ℝ) (b1 : Fin 32 → ℝ) (w2 : Fin 16 → Fin 32 → ℝ) (b2 : Fin 16 → ℝ)
    (w3 : Fin 3 → Fin 16 → ℝ) (b3 : Fin 3 → ℝ) (x : Fin 8 → ℝ) (c : Fin 3) :
    affine (fun c k => (w3 c k : EReal)) (fun c => (b3 c : EReal))
      (rectAffine (fun k j => (w2 k j : EReal)) (fun k => (b2 k : EReal))
        (rectAffine (fun j i => (w1 j i : EReal)) (fun j => (b1 j : EReal)) (fun i => (x i : EReal)))) c
    = affine (fun c k => (w3 c k : EReal))
        (affine (fun c k => (w3 c k : EReal)) (fun c => (b3 c : EReal))
          (affine (fun k j => (w2 k j : EReal)) (fun k => (b2 k : EReal)) (fun j => (b1 j : EReal))))
        (floorLinear (fun k j => (w2 k j : EReal))
          (fun k => -(affine (fun k j => (w2 k j : EReal)) (fun k => (b2 k : EReal)) (fun j => (b1 j : EReal)) k))
          (floorLinear (fun j i => (w1 j i : EReal)) (fun j => -(b1 j : EReal)) (fun i => (x i : EReal)))) c := by
  simp only [rectAffine_coe, affine_coe, ← EReal.coe_neg, floorLinear_coe]
  exact congrArg _ (logits_foldedR w1 b1 w2 b2 w3 b3 x c)

end Cert.MlpSpec

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KernelTile.lean ====
/-
  One lane tile of the kernel body, read entry by entry.

  The body handles its `[8, 131072]` block of transposed inputs as four tiles of 32768 columns.  Each tile goes
  through the same arithmetic: three matrix products into zero accumulators, the first two followed by a maximum
  with a broadcast column (the negated, folded bias), the third by the addition of a broadcast column; then, column
  by column, the maximum of the three logits is subtracted, and the logarithm of the sum of the exponentials — taken
  as a product with a `[1, 3]` row of weights — is subtracted again.  So entry `(c, q)` of a tile's result depends on
  column `q` of the tile's input only, and is the weighted log-softmax of that column's folded logits.
-/
import proofs.«181966_g2000401451430501_pallasbulk_762_29_alg».proof.Proof.Gen.KernelIdeal.Skeleton
import proofs.«181966_g2000401451430501_pallasbulk_762_29_alg».proof.Proof.MlpSpec
import proofs.«181966_g2000401451430501_pallasbulk_762_29_alg».proof.Proof.LibDenseLayers

noncomputable section

namespace Cert.KernelIdeal.Tile

open Idealize.ShloMosaic Idealize.ShloMosaic.ValueIdx Idealize.ShloMosaic.DenseLayers
open Cert.KernelIdeal Cert.KernelIdeal.Gen Cert.MlpSpec

/-! ## The four tiles are one function -/

theorem pay3_eq (x : Vec Ideal S8x32768 .f32) (w1 : Vec Ideal S32x8 .f32) (nb1 : Vec Ideal S32x1 .f32) (w2 : Vec Ideal S16x32 .f32)
    (nb2 : Vec Ideal S16x1 .f32) (w3 : Vec Ideal S3x16 .f32) (b3 : Vec Ideal S3x1 .f32) (wt : Vec Ideal S1x3 .f32) :
    k0_pay3 x w1 nb1 w2 nb2 w3 b3 wt = k0_pay2 x w1 nb1 w2 nb2 w3 b3 wt := rfl

theorem pay5_eq (x : Vec Ideal S8x32768 .f32) (w1 : Vec Ideal S32x8 .f32) (nb1 : Vec Ideal S32x1 .f32) (w2 : Vec Ideal S16x32 .f32)
    (nb2 : Vec Ideal S16x1 .f32) (w3 : Vec Ideal S3x16 .f32) (b3 : Vec Ideal S3x1 .f32) (wt : Vec Ideal S1x3 .f32) :
    k0_pay5 (k0_pay4 x) w1 nb1 w2 nb2 w3 b3 wt = k0_pay2 x w1 nb1 w2 nb2 w3 b3 wt := rfl

theorem pay1_eq (x : Vec Ideal S8x32768 .f32) (w1 : Vec Ideal S32x8 .f32) (nb1 : Vec Ideal S32x1 .f32) (w2 : Vec Ideal S16x32 .f32)
    (nb2 : Vec Ideal S16x1 .f32) (w3 : Vec Ideal S3x16 .f32) (b3 : Vec Ideal S3x1 .f32) (wt : Vec Ideal S1x3 .f32) :
    k0_pay1 (k0_pay6 x w1) nb1 w2 nb2 w3 b3 wt = k0_pay2 x w1 nb1 w2 nb2 w3 b3 wt := rfl

/-! ## The matrix products of the body, read at an entry -/

theorem mm1 (A : FVec Ideal S32x8 .f32) (B : FVec Ideal S8x32768 .f32) (a : Fin 32) (b : Fin 32768) :
    matmul dot_S32x8_S8x32768_S32x32768_1_0_0_1_n_n none A B (constant (F := Ideal) S32x32768 .f32 0x00000000#32) (ix2 a b)
      = ∑ c : Fin 8, A (ix2 a c) * B (ix2 c b) :=
  matmul_rowcol_zero_apply Facts₀.dot_S32x8_S8x32768_S32x32768_1_0_0_1_n_n_wf none A B a b

theorem mm2 (A : FVec Ideal S16x32 .f32) (B : FVec Ideal S32x32768 .f32) (a : Fin 16) (b : Fin 32768) :
    matmul dot_S16x32_S32x32768_S16x32768_1_0_0_1_n_n none A B (constant (F := Ideal) S16x32768 .f32 0x00000000#32) (ix2 a b)
      = ∑ c : Fin 32, A (ix2 a c) * B (ix2 c b) :=
  matmul_rowcol_zero_apply Facts₀.dot_S16x32_S32x32768_S16x32768_1_0_0_1_n_n_wf none A B a b

theorem mm3 (A : FVec Ideal S3x16 .f32) (B : FVec Ideal S16x32768 .f32) (a : Fin 3) (b : Fin 32768) :
    matmul dot_S3x16_S16x32768_S3x32768_1_0_0_1_n_n none A B (constant (F := Ideal) S3x32768 .f32 0x00000000#32) (ix2 a b)
      = ∑ c : Fin 16, A (ix2 a c) * B (ix2 c b) :=
  matmul_rowcol_zero_apply Facts₀.dot_S3x16_S16x32768_S3x32768_1_0_0_1_n_n_wf none A B a b

theorem mm4 (A : FVec Ideal S1x3 .f32) (B : FVec Ideal S3x32768 .f32) (a : Fin 1) (b : Fin 32768) :
    matmul dot_S1x3_S3x32768_S1x32768_1_0_0_1_n_n none A B (constant (F := Ideal) S1x32768 .f32 0x00000000#32) (ix2 a b)
      = ∑ c : Fin 3, A (ix2 a c) * B (ix2 c b) :=
  matmul_rowcol_zero_apply Facts₀.dot_S1x3_S3x32768_S1x32768_1_0_0_1_n_n_wf none A B a b

/-- The largest logit of a column. -/
theorem colmax (src : FVec Ideal S3x32768 .f32) (q : Fin 32768) :
    multiReduction .maximumf [0] S32768 src 0xFF800000#32 reduces_S3x32768_S32768 (.inl rfl) rfl (ix1 q)
      = (Finset.univ : Finset (Fin 3)).fold max (Ideal.ofBits .f32 0xFF800000#32) (fun k => src (ix2 k q)) :=
  maxOverRows_apply src _ _ _ _ q

/-! ## A tile's result at an entry -/

/-- Entry `(c, q)` of a tile's result: the weighted log-softmax of column `q`'s folded logits. -/
theorem pay2_apply (x : Vec Ideal S8x32768 .f32) (w1 : Vec Ideal S32x8 .f32) (nb1 : Vec Ideal S32x1 .f32) (w2 : Vec Ideal S16x32 .f32)
    (nb2 : Vec Ideal S16x1 .f32) (w3 : Vec Ideal S3x16 .f32) (b3 : Vec Ideal S3x1 .f32) (wt : Vec Ideal S1x3 .f32)
    (c : Fin 3) (q : Fin 32768) :
    k0_pay2 x w1 nb1 w2 nb2 w3 b3 wt (ix2 c q)
      = logSoftmaxW (fun k => wt (ix2 (0 : Fin 1) k))
          (affine (fun c k => w3 (ix2 c k)) (fun c => b3 (ix2 c (0 : Fin 1)))
            (floorLinear (fun k j => w2 (ix2 k j)) (fun k => nb2 (ix2 k (0 : Fin 1)))
              (floorLinear (fun j i => w1 (ix2 j i)) (fun j => nb1 (ix2 j (0 : Fin 1))) (fun i => x (ix2 i q))))) c := by
  unfold k0_pay2 logSoftmaxW shifted rowMax affine floorLinear
  simp only [subf_apply, addf_apply, maximumf_apply, broadcastTo_1b_ab_apply, broadcastTo_column_apply,
    shapeCast_a_1a_apply, shapeCast_self, mm1, mm2, mm3, mm4,
    Idealize.ShloMosaic.exp, Idealize.ShloMosaic.log, Ideal.exp_def, Ideal.log_def]
  rw [colmax]
  simp only [addf_apply, maximumf_apply, broadcastTo_column_apply, mm1, mm2, mm3]

end Cert.KernelIdeal.Tile

end
-- ==== Proof.KernelBlock.lean ====
/-
  What one grid point leaves in the output block, entry by entry.

  The body writes its `[3, 131072]` output block in four pieces of 32768 columns; the piece at column offset `o` is
  the tile function of columns `o … o + 32767` of the `[8, 131072]` input block and of the whole weight blocks.  An
  entry of a tile's result depends on its own input column only, so the four pieces are the restrictions of ONE
  function of the block's index: entry `(c, q)` is the weighted log-softmax of the folded logits of input column `q`.
-/
import proofs.«181966_g2000401451430501_pallasbulk_762_29_alg».proof.Proof.Gen.KernelIdeal.Frame
import proofs.«181966_g2000401451430501_pallasbulk_762_29_alg».proof.Proof.KernelTile

noncomputable section

namespace Cert.KernelIdeal.Block

open Idealize.ShloMosaic Idealize.ShloMosaic.ValueIdx
open Cert.KernelIdeal Cert.KernelIdeal.Gen Cert.KernelIdeal.Tile Cert.MlpSpec

/-- The output block as one function of the input blocks: column `q` of the result from column `q` of the input. -/
def blockFn (x0 : Vec Ideal S8x131072 .f32) (x1 : Vec Ideal S32x8 .f32) (x2 : Vec Ideal S32x1 .f32) (x3 : Vec Ideal S16x32 .f32)
    (x4 : Vec Ideal S16x1 .f32) (x5 : Vec Ideal S3x16 .f32) (x6 : Vec Ideal S3x1 .f32) (x7 : Vec Ideal S1x3 .f32) :
    Vec Ideal S3x131072 .f32 :=
  fun y => logSoftmaxW (fun k => x7 (ix2 (0 : Fin 1) k))
    (affine (fun c k => x5 (ix2 c k)) (fun c => x6 (ix2 c (0 : Fin 1)))
      (floorLinear (fun k j => x3 (ix2 k j)) (fun k => x4 (ix2 k (0 : Fin 1)))
        (floorLinear (fun j i => x1 (ix2 j i)) (fun j => x2 (ix2 j (0 : Fin 1)))
          (fun i => x0 (ix2 i (y 1 : Fin 131072)))))) (y 0 : Fin 3)

theorem zeros2 : (![0, 0] : Fin 2 → Nat) = fun _ => 0 := funext fun a => by fin_cases a <;> rfl

/-- The piece at column offset `o`: the tile function of the input columns from `o` on is the block function there. -/
theorem piece_eq (o : ℕ) (inbI : ∀ a, (![0, o] : Fin 2 → ℕ) a + S8x32768.size a ≤ S8x131072.size a)
    (inbO : ∀ a, (![0, o] : Fin 2 → ℕ) a + S3x32768.size a ≤ S3x131072.size a)
    (x0 : Vec Ideal S8x131072 .f32) (x1 : Vec Ideal S32x8 .f32) (x2 : Vec Ideal S32x1 .f32) (x3 : Vec Ideal S16x32 .f32)
    (x4 : Vec Ideal S16x1 .f32) (x5 : Vec Ideal S3x16 .f32) (x6 : Vec Ideal S3x1 .f32) (x7 : Vec Ideal S1x3 .f32)
    (xx : S3x32768.Idx) :
    k0_pay2 (View.ld x0 (Rect.unit (s := S8x131072) ![0, o] S8x32768.size inbI)) (View.ld x1 r0_1) (View.ld x2 r0_2)
        (View.ld x3 r0_3) (View.ld x4 r0_4) (View.ld x5 r0_5) (View.ld x6 r0_6) (View.ld x7 r0_7) xx
      = blockFn x0 x1 x2 x3 x4 x5 x6 x7 ((Rect.unit (s := S3x131072) ![0, o] S3x32768.size inbO).emb xx) := by
  obtain ⟨cc, q, rfl⟩ : ∃ (cc : Fin 3) (q : Fin 32768), xx = ix2 cc q := ⟨xx 0, xx 1, eq_ix2 xx⟩
  rw [pay2_apply]
  have l1 : View.ld x1 r0_1 = x1 := View.ld_unit_zero zeros2 _ x1
  have l2 : View.ld x2 r0_2 = x2 := View.ld_unit_zero zeros2 _ x2
  have l3 : View.ld x3 r0_3 = x3 := View.ld_unit_zero zeros2 _ x3
  have l4 : View.ld x4 r0_4 = x4 := View.ld_unit_zero zeros2 _ x4
  have l5 : View.ld x5 r0_5 = x5 := View.ld_unit_zero zeros2 _ x5
  have l6 : View.ld x6 r0_6 = x6 := View.ld_unit_zero zeros2 _ x6
  have l7 : View.ld x7 r0_7 = x7 := View.ld_unit_zero zeros2 _ x7
  rw [l1, l2, l3, l4, l5, l6, l7]
  have e0 : ((Rect.unit (s := S3x131072) ![0, o] S3x32768.size inbO).emb (ix2 cc q) 0 : Fin 3) = cc :=
    Fin.ext (by show 0 + 1 * cc.val = cc.val; omega)
  have e1 : ∀ i : Fin 8, View.ld x0 (Rect.unit (s := S8x131072) ![0, o] S8x32768.size inbI) (ix2 i q)
      = x0 (ix2 i ((Rect.unit (s := S3x131072) ![0, o] S3x32768.size inbO).emb (ix2 cc q) 1 : Fin 131072)) := fun i => by
    show x0 ((Rect.unit (s := S8x131072) ![0, o] S8x32768.size inbI).emb (ix2 i q)) = _
    congr 1
    funext a; apply Fin.ext
    match a with
    | ⟨0, _⟩ => show 0 + 1 * i.val = i.val; omega
    | ⟨1, _⟩ => rfl
  unfold blockFn
  rw [e0]
  simp only [e1]

/-- What the body leaves in the output block is the block function of the input blocks. -/
theorem out0_8_eq (x0 : Vec Ideal S8x131072 .f32) (x1 : Vec Ideal S32x8 .f32) (x2 : Vec Ideal S32x1 .f32) (x3 : Vec Ideal S16x32 .f32)
    (x4 : Vec Ideal S16x1 .f32) (x5 : Vec Ideal S3x16 .f32) (x6 : Vec Ideal S3x1 .f32) (x7 : Vec Ideal S1x3 .f32) :
    out0_8 x0 x1 x2 x3 x4 x5 x6 x7 = blockFn x0 x1 x2 x3 x4 x5 x6 x7 := by
  funext y
  unfold out0_8
  refine View.canon_apply_of_pieces (blockFn x0 x1 x2 x3 x4 x5 x6 x7) _ ?_ y (cover0_8 _ _ _ _ y)
  intro p hp
  simp only [List.mem_cons, List.not_mem_nil, or_false] at hp
  rcases hp with rfl | rfl | rfl | rfl
  · exact fun xx => (congrFun (pay1_eq _ _ _ _ _ _ _ _) xx).trans (piece_eq 98304 Facts₀.inb_S8x131072_S8x32768_0_98304 Facts₀.inb_S3x131072_S3x32768_0_98304 x0 x1 x2 x3 x4 x5 x6 x7 xx)
  · exact fun xx => (congrFun (pay5_eq _ _ _ _ _ _ _ _) xx).trans (piece_eq 65536 Facts₀.inb_S8x131072_S8x32768_0_65536 Facts₀.inb_S3x131072_S3x32768_0_65536 x0 x1 x2 x3 x4 x5 x6 x7 xx)
  · exact fun xx => (congrFun (pay3_eq _ _ _ _ _ _ _ _) xx).trans (piece_eq 32768 Facts₀.inb_S8x131072_S8x32768_0_32768 Facts₀.inb_S3x131072_S3x32768_0_32768 x0 x1 x2 x3 x4 x5 x6 x7 xx)
  · exact fun xx => piece_eq 0 Facts₀.inb_S8x131072_S8x32768_0_0 Facts₀.inb_S3x131072_S3x32768_0_0 x0 x1 x2 x3 x4 x5 x6 x7 xx

end Cert.KernelIdeal.Block

end
-- ==== Proof.KernelArray.lean ====
/-
  The kernel's `[3, 1048576]` array after the run, as one function of the arrays the region finds.

  Grid point `t` (of 8) stages columns `t * 131072 …` of the transposed input and writes back the same columns of
  the result; every other operand is staged whole at every point.  The block a point writes back is the block
  function of its input blocks, whose entry `(c, q)` depends on input column `q` only; so block `t` of the final array
  is block `t` of ONE whole-array function: entry `(c, r)` is the weighted log-softmax of the folded logits of
  column `r` of the transposed input.  The 8 blocks tile the array.
-/
import proofs.«181966_g2000401451430501_pallasbulk_762_29_alg».proof.Proof.Gen.KernelIdeal.Frame
import proofs.«181966_g2000401451430501_pallasbulk_762_29_alg».proof.Proof.KernelBlock

noncomputable section

namespace Cert.KernelIdeal.Arr

open Idealize.ShloMosaic Idealize.ShloMosaic.ValueIdx Idealize.SL.Sem
open Cert.KernelIdeal Cert.KernelIdeal.Gen Cert.KernelIdeal.Block Cert.MlpSpec

variable (m : (ℓ : Loc nD τ sig) → Buf (Elt Ideal) ℓ)

/-- The whole array from the transposed input `xT`, the weights, the two floors, the last bias and the row of weights
    of the exponentials. -/
def arrayFn (xT : S8x1048576.Idx → EReal) (w1 : S32x8.Idx → EReal) (fl1 : S32x1.Idx → EReal) (w2 : S16x32.Idx → EReal)
    (fl2 : S16x1.Idx → EReal) (w3 : S3x16.Idx → EReal) (b3 : S3x1.Idx → EReal) (wt : S1x3.Idx → EReal) :
    S3x1048576.Idx → EReal :=
  fun idx => logSoftmaxW (fun k => wt (ix2 (0 : Fin 1) k))
    (affine (fun c k => w3 (ix2 c k)) (fun c => b3 (ix2 c (0 : Fin 1)))
      (floorLinear (fun k j => w2 (ix2 k j)) (fun k => fl2 (ix2 k (0 : Fin 1)))
        (floorLinear (fun j i => w1 (ix2 j i)) (fun j => fl1 (ix2 j (0 : Fin 1)))
          (fun i => xT (ix2 i (idx 1 : Fin 1048576)))))) (idx 0 : Fin 3)

/-- The index maps over the grid: the input and output blocks move together along the long axis, one block per point;
    every other window stays at its one block. -/
theorem idx_facts : ∀ t : Fin cfg0.N,
    win0_0.index t (0 : Fin 2) = 0 ∧ win0_0.index t (1 : Fin 2) = t.val
    ∧ win0_8.index t (0 : Fin 2) = 0 ∧ win0_8.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks read off the arrays -/

theorem iblk1 (c : Dev nD) (t : Fin cfg0.N) (y : S32x8.Idx) : iblk m c 1 t y = V m c main_arg1 y := by
  show V m c main_arg1 (((cfg0.win 1).blk t).view.emb y) = V m c main_arg1 y
  refine congrArg (V m c main_arg1) ?_
  obtain ⟨-, -, -, -, e0, e1, -⟩ := idx_facts t
  funext a; apply Fin.ext
  match a with
  | ⟨0, _⟩ => show win0_1.index t (0 : Fin 2) * 32 + 1 * (y 0).val = (y 0).val; omega
  | ⟨1, _⟩ => show win0_1.index t (1 : Fin 2) * 8 + 1 * (y 1).val = (y 1).val; omega

theorem iblk2 (c : Dev nD) (t : Fin cfg0.N) (y : S32x1.Idx) : iblk m c 2 t y = V m c main_v6 y := by
  show V m c main_v6 (((cfg0.win 2).blk t).view.emb y) = V m c main_v6 y
  refine congrArg (V m c main_v6) ?_
  obtain ⟨-, -, -, -, -, -, e0, e1, -⟩ := idx_facts t
  funext a; apply Fin.ext
  match a with
  | ⟨0, _⟩ => show win0_2.index t (0 : Fin 2) * 32 + 1 * (y 0).val = (y 0).val; omega
  | ⟨1, _⟩ => show win0_2.index t (1 : Fin 2) * 1 + 1 * (y 1).val = (y 1).val; omega

theorem iblk3 (c : Dev nD) (t : Fin cfg0.N) (y : S16x32.Idx) : iblk m c 3 t y = V m c main_arg3 y := by
  show V m c main_arg3 (((cfg0.win 3).blk t).view.emb y) = V m c main_arg3 y
  refine congrArg (V m c main_arg3) ?_
  obtain ⟨-, -, -, -, -, -, -, -, e0, e1, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 32 + 1 * (y 1).val = (y 1).val; omega

theorem iblk4 (c : Dev nD) (t : Fin cfg0.N) (y : S16x1.Idx) : iblk m c 4 t y = V m c main_v7 y := by
  show V m c main_v7 (((cfg0.win 4).blk t).view.emb y) = V m c main_v7 y
  refine congrArg (V m c main_v7) ?_
  obtain ⟨-, -, -, -, -, -, -, -, -, -, e0, e1, -⟩ := idx_facts t
  funext a; apply Fin.ext
  match a with
  | ⟨0, _⟩ => show win0_4.index t (0 : Fin 2) * 16 + 1 * (y 0).val = (y 0).val; omega
  | ⟨1, _⟩ => show win0_4.index t (1 : Fin 2) * 1 + 1 * (y 1).val = (y 1).val; omega

theorem iblk5 (c : Dev nD) (t : Fin cfg0.N) (y : S3x16.Idx) : iblk m c 5 t y = V m c main_arg5 y := by
  show V m c main_arg5 (((cfg0.win 5).blk t).view.emb y) = V m c main_arg5 y
  refine congrArg (V m c main_arg5) ?_
  obtain ⟨-, -, -, -, -, -, -, -, -, -, -, -, e0, e1, -⟩ := idx_facts t
  funext a; apply Fin.ext
  match a with
  | ⟨0, _⟩ => show win0_5.index t (0 : Fin 2) * 3 + 1 * (y 0).val = (y 0).val; omega
  | ⟨1, _⟩ => show win0_5.index t (1 : Fin 2) * 16 + 1 * (y 1).val = (y 1).val; omega

theorem iblk6 (c : Dev nD) (t : Fin cfg0.N) (y : S3x1.Idx) : iblk m c 6 t y = V m c main_v4 y := by
  show V m c main_v4 (((cfg0.win 6).blk t).view.emb y) = V m c main_v4 y
  refine congrArg (V m c main_v4) ?_
  obtain ⟨-, -, -, -, -, -, -, -, -, -, -, -, -, -, e0, e1, -⟩ := idx_facts t
  funext a; apply Fin.ext
  match a with
  | ⟨0, _⟩ => show win0_6.index t (0 : Fin 2) * 3 + 1 * (y 0).val = (y 0).val; omega
  | ⟨1, _⟩ => show win0_6.index t (1 : Fin 2) * 1 + 1 * (y 1).val = (y 1).val; omega

theorem iblk7 (c : Dev nD) (t : Fin cfg0.N) (y : S1x3.Idx) : iblk m c 7 t y = V m c main_v5 y := by
  show V m c main_v5 (((cfg0.win 7).blk t).view.emb y) = V m c main_v5 y
  refine congrArg (V m c main_v5) ?_
  obtain ⟨-, -, -, -, -, -, -, -, -, -, -, -, -, -, -, -, e0, e1⟩ := idx_facts t
  funext a; apply Fin.ext
  match a with
  | ⟨0, _⟩ => show win0_7.index t (0 : Fin 2) * 1 + 1 * (y 0).val = (y 0).val; omega
  | ⟨1, _⟩ => show win0_7.index t (1 : Fin 2) * 3 + 1 * (y 1).val = (y 1).val; omega

/-- Column `q` of point `t`'s input block is the transposed input's column under the output block's column `q`. -/
theorem iblk0 (c : Dev nD) (t : Fin cfg0.N) (j : S3x131072.Idx) (i : Fin 8) :
    iblk m c 0 t (ix2 i (j 1 : Fin 131072))
      = V m c main_v0 (ix2 i ((((cfg0.win 8).blk t).view.emb j) 1 : Fin 1048576)) := by
  show V m c main_v0 (((cfg0.win 0).blk t).view.emb (ix2 i (j 1 : Fin 131072))) = _
  refine congrArg (V m c main_v0) ?_
  obtain ⟨e0, e1, e2, e3, -⟩ := idx_facts t
  funext a; apply Fin.ext
  match a with
  | ⟨0, _⟩ => show win0_0.index t (0 : Fin 2) * 8 + 1 * i.val = i.val; omega
  | ⟨1, _⟩ => show win0_0.index t (1 : Fin 2) * 131072 + 1 * (j 1).val = win0_8.index t (1 : Fin 2) * 131072 + 1 * (j 1).val; omega

/-- The output block keeps the class coordinate. -/
theorem emb8_row (t : Fin cfg0.N) (j : S3x131072.Idx) : ((((cfg0.win 8).blk t).view.emb j) 0 : Fin 3) = (j 0 : Fin 3) := by
  obtain ⟨-, -, e2, -⟩ := idx_facts t
  apply Fin.ext
  show win0_8.index t (0 : Fin 2) * 3 + 1 * (j 0).val = (j 0).val
  omega

/-! ## What a point writes back -/

theorem flushed8_eq (c : Dev nD) (t : Fin cfg0.N) :
    (dats m 0 c).flushed 8 t = ((cfg0.win 8).blk t).view.read (Elt Ideal)
      (arrayFn (V m c main_v0) (V m c main_arg1) (V m c main_v6) (V m c main_arg3) (V m c main_v7) (V m c main_arg5)
        (V m c main_v4) (V m c main_v5)) := by
  show (cfg0.win 8).cut (grid0.coords t) ((dats m 0 c).after 8 t) = _
  rw [after0_8, out0_8_eq]
  funext j
  show blockFn (iblk m c 0 t) (iblk m c 1 t) (iblk m c 2 t) (iblk m c 3 t) (iblk m c 4 t) (iblk m c 5 t) (iblk m c 6 t) (iblk m c 7 t) j
    = arrayFn (V m c main_v0) (V m c main_arg1) (V m c main_v6) (V m c main_arg3) (V m c main_v7) (V m c main_arg5)
        (V m c main_v4) (V m c main_v5) (((cfg0.win 8).blk t).view.emb j)
  unfold blockFn arrayFn
  rw [emb8_row t j]
  simp only [iblk0 m c t j, iblk1 m c t, iblk2 m c t, iblk3 m c t, iblk4 m c t, iblk5 m c t, iblk6 m c t, iblk7 m c t]

/-! ## The blocks tile the array -/

theorem mem_blk8 (t : Fin cfg0.N) (i : S3x1048576.Idx) :
    i ∈ ((cfg0.win 8).blk t).view.set ↔ ∀ a : Fin 2, win0_8.index t a * S3x131072.size a ≤ (i a).val
      ∧ (i a).val < win0_8.index t a * S3x131072.size a + S3x131072.size a := by
  show i ∈ ((View.whole main_v8).slice (win0_8.rect t)).set ↔ _
  rw [View.set_slice_whole, Rect.mem_set_unit]
  exact Iff.rfl

theorem cover8 (i : S3x1048576.Idx) : ∃ t : Fin cfg0.N, (cfg0.win 8).flush t = true ∧ i ∈ ((cfg0.win 8).blk t).view.set := by
  have h0 : (i 0).val < 3 := (i 0).isLt
  have h1 : (i 1).val < 1048576 := (i 1).isLt
  have ht : (i 1).val / 131072 < cfg0.N := by show _ < 8; omega
  refine ⟨⟨(i 1).val / 131072, ht⟩, flush0_8 _, ?_⟩
  rw [mem_blk8]
  obtain ⟨-, -, e2, e3, -⟩ := idx_facts ⟨(i 1).val / 131072, ht⟩
  have e3' : win0_8.index ⟨(i 1).val / 131072, ht⟩ (1 : Fin 2) = (i 1).val / 131072 := e3
  intro a
  match a with
  | ⟨0, _⟩ =>
    show win0_8.index ⟨(i 1).val / 131072, ht⟩ (0 : Fin 2) * 3 ≤ (i 0).val
      ∧ (i 0).val < win0_8.index ⟨(i 1).val / 131072, ht⟩ (0 : Fin 2) * 3 + 3
    omega
  | ⟨1, _⟩ =>
    show win0_8.index ⟨(i 1).val / 131072, ht⟩ (1 : Fin 2) * 131072 ≤ (i 1).val
      ∧ (i 1).val < win0_8.index ⟨(i 1).val / 131072, ht⟩ (1 : Fin 2) * 131072 + 131072
    omega

/-- THE ARRAY after the run. -/
theorem final8 (c : Dev nD) :
    (dats m 0 c).arrAt 8 cfg0.N
      = arrayFn (V m c main_v0) (V m c main_arg1) (V m c main_v6) (V m c main_arg3) (V m c main_v7) (V m c main_arg5)
          (V m c main_v4) (V m c main_v5) :=
  (dats m 0 c).arrAt_eq_of_cover 8 _ (fun t _ => flushed8_eq m c t) cover8

end Cert.KernelIdeal.Arr

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.KernelHost.lean ====
/-
  The host side of the kernel's program, read entry by entry.

  Before the region the program transposes the input, folds the biases (`b₂' = W₂ b₁ + b₂`, `b₃' = W₃ b₂' + b₃`, two small
  matrix products and two additions), negates `b₁` and `b₂'`, and broadcasts the constant one to a `[1, 3]` row.  This
  module names what each of those arrays holds when the region is entered, as the operations' term of the argument
  arrays, and reads each term at an index.
-/
import proofs.«181966_g2000401451430501_pallasbulk_762_29_alg».proof.Proof.Gen.KernelIdeal.Frame
import proofs.«181966_g2000401451430501_pallasbulk_762_29_alg».proof.Proof.MlpSpec
import proofs.«181966_g2000401451430501_pallasbulk_762_29_alg».proof.Proof.LibDenseLayers
import proofs.«181966_g2000401451430501_pallasbulk_762_29_alg».proof.Proof.LibHostMatmul
import Idealize.ShloMosaic.Lib.StableHlo.Run
import Idealize.ShloMosaic.Lib.ValueLayout
import Idealize.ShloMosaic.PureOps.Ideal.Laws

noncomputable section

namespace Cert.KernelIdeal.HostSide

open Idealize.ShloMosaic Idealize.ShloMosaic.TcCoe Idealize.ShloMosaic.ValueIdx Idealize.SL.Sem
open Idealize.ShloMosaic.DenseLayers
open Cert.KernelIdeal Cert.KernelIdeal.Gen Cert.MlpSpec

variable (m : (ℓ : Loc nD τ sig) → Buf (Elt Ideal) ℓ)

/-- The seven argument arrays as launched, on core `c`. -/
abbrev A0 (c : Dev nD) : FVec Ideal S1048576x8 .f32 := m ((c : Thread nD τ).loc main_arg0)
abbrev A1 (c : Dev nD) : FVec Ideal S32x8 .f32 := m ((c : Thread nD τ).loc main_arg1)
abbrev A2 (c : Dev nD) : FVec Ideal S32x1 .f32 := m ((c : Thread nD τ).loc main_arg2)
abbrev A3 (c : Dev nD) : FVec Ideal S16x32 .f32 := m ((c : Thread nD τ).loc main_arg3)
abbrev A4 (c : Dev nD) : FVec Ideal S16x1 .f32 := m ((c : Thread nD τ).loc main_arg4)
abbrev A5 (c : Dev nD) : FVec Ideal S3x16 .f32 := m ((c : Thread nD τ).loc main_arg5)
abbrev A6 (c : Dev nD) : FVec Ideal S3x1 .f32 := m ((c : Thread nD τ).loc main_arg6)

/-! ## What the region finds -/

theorem V_v0 (c : Dev nD) : V m c main_v0
    = (transpose S8x1048576 [1, 0] (A0 m c) transposes_S1048576x8_S8x1048576_1_0 : FVec Ideal S8x1048576 .f32) := by
  show StableHlo.after hostOps0 (fun b => m (c, b)) (Proc.devRef .tc main_v0) = _
  after_results

theorem V_v6 (c : Dev nD) : V m c main_v6 = (Host.negf (A2 m c) : FVec Ideal S32x1 .f32) := by
  show StableHlo.after hostOps0 (fun b => m (c, b)) (Proc.devRef .tc main_v6) = _
  after_results

/-- The folded second bias `W₂ b₁ + b₂`, as the host computes it. -/
def bias2 (c : Dev nD) : FVec Ideal S16x1 .f32 :=
  addf (Host.dotGeneral dot_S16x32_S32x1_S16x1_1_0_0_1_n_n none (A3 m c) (A2 m c)) (A4 m c)

theorem V_v7 (c : Dev nD) : V m c main_v7 = (Host.negf (bias2 m c) : FVec Ideal S16x1 .f32) := by
  show StableHlo.after hostOps0 (fun b => m (c, b)) (Proc.devRef .tc main_v7) = _
  unfold bias2
  after_results

theorem V_v4 (c : Dev nD) : V m c main_v4
    = (addf (Host.dotGeneral dot_S3x16_S16x1_S3x1_1_0_0_1_n_n none (A5 m c) (bias2 m c)) (A6 m c) : FVec Ideal S3x1 .f32) := by
  show StableHlo.after hostOps0 (fun b => m (c, b)) (Proc.devRef .tc main_v4) = _
  unfold bias2
  after_results

theorem V_v5 (c : Dev nD) : V m c main_v5
    = (broadcastInDim S1x3 ![] bcast_S_S1x3 (constant (F := Ideal) S_ .f32 0x3F800000#32) : FVec Ideal S1x3 .f32) := by
  show StableHlo.after hostOps0 (fun b => m (c, b)) (Proc.devRef .tc main_v5) = _
  after_results

/-! ## The same, entry by entry -/

/-- The transposed input: entry `(i, r)` is the input's `(r, i)`. -/
theorem V_v0_apply (c : Dev nD) (i : Fin 8) (r : Fin 1048576) :
    (V m c main_v0 : FVec Ideal S8x1048576 .f32) (ix2 i r) = A0 m c (ix2 r i) :=
  (congrFun (V_v0 m c) (ix2 i r)).trans (transpose_ix2_apply (A0 m c) _ i r)

/-- The first floor: `-b₁`. -/
theorem V_v6_apply (c : Dev nD) (j : Fin 32) :
    (V m c main_v6 : FVec Ideal S32x1 .f32) (ix2 j (0 : Fin 1)) = -(A2 m c (ix2 j (0 : Fin 1))) :=
  congrFun (V_v6 m c) (ix2 j (0 : Fin 1))

/-- The folded second bias is the affine image of `b₁`. -/
theorem bias2_apply (c : Dev nD) (k : Fin 16) :
    bias2 m c (ix2 k (0 : Fin 1))
      = affine (fun k j => A3 m c (ix2 k j)) (fun k => A4 m c (ix2 k (0 : Fin 1))) (fun j => A2 m c (ix2 j (0 : Fin 1))) k :=
  congrArg (· + A4 m c (ix2 k (0 : Fin 1)))
    (dotGeneral_rowcol_apply Facts₀.dot_S16x32_S32x1_S16x1_1_0_0_1_n_n_wf none (A3 m c) (A2 m c) k (0 : Fin 1))

/-- The second floor: `-(W₂ b₁ + b₂)`. -/
theorem V_v7_apply (c : Dev nD) (k : Fin 16) :
    (V m c main_v7 : FVec Ideal S16x1 .f32) (ix2 k (0 : Fin 1))
      = (-(affine (fun k j => A3 m c (ix2 k j)) (fun k => A4 m c (ix2 k (0 : Fin 1))) (fun j => A2 m c (ix2 j (0 : Fin 1))) k) : EReal) :=
  (congrFun (V_v7 m c) (ix2 k (0 : Fin 1))).trans (congrArg (fun z : EReal => -z) (bias2_apply m c k))

/-- The folded last bias: `W₃ (W₂ b₁ + b₂) + b₃`. -/
theorem V_v4_apply (c : Dev nD) (cc : Fin 3) :
    (V m c main_v4 : FVec Ideal S3x1 .f32) (ix2 cc (0 : Fin 1))
      = affine (fun a k => A5 m c (ix2 a k)) (fun a => A6 m c (ix2 a (0 : Fin 1)))
          (affine (fun k j => A3 m c (ix2 k j)) (fun k => A4 m c (ix2 k (0 : Fin 1))) (fun j => A2 m c (ix2 j (0 : Fin 1)))) cc := by
  refine (congrFun (V_v4 m c) (ix2 cc (0 : Fin 1))).trans ?_
  have e : (fun k => bias2 m c (ix2 k (0 : Fin 1)))
      = affine (fun k j => A3 m c (ix2 k j)) (fun k => A4 m c (ix2 k (0 : Fin 1))) (fun j => A2 m c (ix2 j (0 : Fin 1))) :=
    funext fun k => bias2_apply m c k
  rw [← e]
  exact congrArg (· + A6 m c (ix2 cc (0 : Fin 1)))
    (dotGeneral_rowcol_apply Facts₀.dot_S3x16_S16x1_S3x1_1_0_0_1_n_n_wf none (A5 m c) (bias2 m c) cc (0 : Fin 1))

/-- The row of weights of the exponentials is all ones. -/
theorem V_v5_apply (c : Dev nD) (k : Fin 3) : (V m c main_v5 : FVec Ideal S1x3 .f32) (ix2 (0 : Fin 1) k) = (1 : EReal) :=
  (congrFun (V_v5 m c) (ix2 (0 : Fin 1) k)).trans
    ((broadcastInDim_scalar_constant_apply _ _ _).trans (IdealRules.sign_bit.ideal_onePat .f32))

end Cert.KernelIdeal.HostSide

end
-- ==== Proof.MlpFolded.lean ====
/-
  The folded logits are the logits, whenever every weight, bias and input is a real number.
  (The hypothesis is the form in which the precondition's "every input is finite" arrives.)
-/
import proofs.«181966_g2000401451430501_pallasbulk_762_29_alg».proof.Proof.MlpSpec

noncomputable section

namespace Cert.MlpSpec

/-- `logits_folded` for extended-real entries each known to be a real number. -/
theorem logits_folded_of_real (W1 : Fin 32 → Fin 8 → EReal) (B1 : Fin 32 → EReal) (W2 : Fin 16 → Fin 32 → EReal)
    (B2 : Fin 16 → EReal) (W3 : Fin 3 → Fin 16 → EReal) (B3 : Fin 3 → EReal) (X : Fin 8 → EReal)
    (hW1 : ∀ j i, ∃ r : ℝ, W1 j i = (r : EReal)) (hB1 : ∀ j, ∃ r : ℝ, B1 j = (r : EReal))
    (hW2 : ∀ k j, ∃ r : ℝ, W2 k j = (r : EReal)) (hB2 : ∀ k, ∃ r : ℝ, B2 k = (r : EReal))
    (hW3 : ∀ c k, ∃ r : ℝ, W3 c k = (r : EReal)) (hB3 : ∀ c, ∃ r : ℝ, B3 c = (r : EReal))
    (hX : ∀ i, ∃ r : ℝ, X i = (r : EReal)) (c : Fin 3) :
    affine W3 B3 (rectAffine W2 B2 (rectAffine W1 B1 X)) c
      = affine W3 (affine W3 B3 (affine W2 B2 B1))
          (floorLinear W2 (fun k => -(affine W2 B2 B1 k)) (floorLinear W1 (fun j => -(B1 j)) X)) c := by
  choose w1 hw1 using hW1
  choose b1 hb1 using hB1
  choose w2 hw2 using hW2
  choose b2 hb2 using hB2
  choose w3 hw3 using hW3
  choose b3 hb3 using hB3
  choose x hx using hX
  obtain rfl : W1 = fun j i => (w1 j i : EReal) := funext fun j => funext fun i => hw1 j i
  obtain rfl : B1 = fun j => (b1 j : EReal) := funext hb1
  obtain rfl : W2 = fun k j => (w2 k j : EReal) := funext fun k => funext fun j => hw2 k j
  obtain rfl : B2 = fun k => (b2 k : EReal) := funext hb2
  obtain rfl : W3 = fun c k => (w3 c k : EReal) := funext fun c => funext fun k => hw3 c k
  obtain rfl : B3 = fun c => (b3 c : EReal) := funext hb3
  obtain rfl : X = fun i => (x i : EReal) := funext hx
  exact logits_folded w1 b1 w2 b2 w3 b3 x c

end Cert.MlpSpec

end
-- ==== Proof.FiniteInputs.lean ====
/-
  The precondition, read back: every entry of every input array is a real number.

  The printed predicate takes, array by array, the absolute values, compares each with the pattern of `+∞`, reduces the
  comparisons by `and` over the whole array, and conjoins the seven results.  On the extended reals `|x| < +∞` holds
  exactly of the real numbers: `⊤` and `⊥` both have absolute value `⊤`.
-/
import proofs.«181966_g2000401451430501_pallasbulk_762_29_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The pattern of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One array's test: where the comparison of `|x|` with the broadcast `+∞` holds, the entry is real. -/
theorem real_of_test {s : Shape} (x : FVec Ideal s .f32) (bc : S_.BroadcastsInDim s ![]) (i : s.Idx)
    (h : cmpf .olt (Host.absf x) (broadcastInDim s ![] bc (constant (F := Ideal) S_ .f32 0x7F800000#32)) i = 1#1) :
    ∃ r : ℝ, x i = (r : EReal) :=
  real_of_abs_lt (x i) h

/-- All seven arrays hold real numbers where the predicate is all ones. -/
theorem all_real [Cert.Pre_finite_inputs.Facts] (x : FVec Ideal S1048576x8 .f32) (w1 : FVec Ideal S32x8 .f32) (b1 : FVec Ideal S32x1 .f32)
    (w2 : FVec Ideal S16x32 .f32) (b2 : FVec Ideal S16x1 .f32) (w3 : FVec Ideal S3x16 .f32) (b3 : FVec Ideal S3x1 .f32)
    (h : Cert.Pre_finite_inputs.fn (F := Ideal) x w1 b1 w2 b2 w3 b3 = fun _ => 1#1) :
    (∀ i, ∃ r : ℝ, x i = (r : EReal)) ∧ (∀ i, ∃ r : ℝ, w1 i = (r : EReal)) ∧ (∀ i, ∃ r : ℝ, b1 i = (r : EReal))
    ∧ (∀ i, ∃ r : ℝ, w2 i = (r : EReal)) ∧ (∀ i, ∃ r : ℝ, b2 i = (r : EReal)) ∧ (∀ i, ∃ r : ℝ, w3 i = (r : EReal))
    ∧ (∀ i, ∃ r : ℝ, b3 i = (r : EReal)) := by
  have h0 := congrFun h ix0
  dsimp only [Cert.Pre_finite_inputs.fn, Cert.Pre_finite_inputs.fn_part1, andi] at h0
  obtain ⟨h6, hb3⟩ := IntOp.andi_eq_one.1 h0
  obtain ⟨h5, hw3⟩ := IntOp.andi_eq_one.1 h6
  obtain ⟨h4, hb2⟩ := IntOp.andi_eq_one.1 h5
  obtain ⟨h3, hw2⟩ := IntOp.andi_eq_one.1 h4
  obtain ⟨h2, hb1⟩ := IntOp.andi_eq_one.1 h3
  obtain ⟨hx, hw1⟩ := IntOp.andi_eq_one.1 h2
  exact ⟨fun i => real_of_test x _ i (Host.reduce_andi_all _ _ _ _ _ hx i),
    fun i => real_of_test w1 _ i (Host.reduce_andi_all _ _ _ _ _ hw1 i),
    fun i => real_of_test b1 _ i (Host.reduce_andi_all _ _ _ _ _ hb1 i),
    fun i => real_of_test w2 _ i (Host.reduce_andi_all _ _ _ _ _ hw2 i),
    fun i => real_of_test b2 _ i (Host.reduce_andi_all _ _ _ _ _ hb2 i),
    fun i => real_of_test w3 _ i (Host.reduce_andi_all _ _ _ _ _ hw3 i),
    fun i => real_of_test b3 _ i (Host.reduce_andi_all _ _ _ _ _ hb3 i)⟩

end Cert.FiniteInputs

end
-- ==== Proof.KernelValue.lean ====
/-
  The kernel's program, run: its result array is the transpose of the specification's `[3, 1048576]` array.

  The region leaves the weighted log-softmax of the FOLDED logits of each input row (the array module), over what the
  host side prepared: the transposed input, the floors `-b₁` and `-(W₂ b₁ + b₂)`, the last bias `W₃ (W₂ b₁ + b₂) + b₃` and
  a row of ones (the host module).  With ones for weights the weighted log-softmax is the log-softmax, and for real
  weights, biases and inputs the folded logits are the logits; so under the precondition the array is the specification's.
  The one host operation after the region transposes it.
-/
import proofs.«181966_g2000401451430501_pallasbulk_762_29_alg».proof.Defs
import proofs.«181966_g2000401451430501_pallasbulk_762_29_alg».proof.Proof.Gen.KernelIdeal.Frame
import proofs.«181966_g2000401451430501_pallasbulk_762_29_alg».proof.Proof.Gen.Pre_finite_inputs
import proofs.«181966_g2000401451430501_pallasbulk_762_29_alg».proof.Proof.KernelArray
import proofs.«181966_g2000401451430501_pallasbulk_762_29_alg».proof.Proof.KernelHost
import proofs.«181966_g2000401451430501_pallasbulk_762_29_alg».proof.Proof.MlpFolded
import proofs.«181966_g2000401451430501_pallasbulk_762_29_alg».proof.Proof.FiniteInputs
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HostSide Cert.MlpSpec

variable (m : (ℓ : Loc nD τ sig) → Buf (Elt Ideal) ℓ)

/-- The region's array at an entry, with the index split into its coordinates. -/
theorem arrayFn_at (xT : S8x1048576.Idx → EReal) (w1 : S32x8.Idx → EReal) (fl1 : S32x1.Idx → EReal) (w2 : S16x32.Idx → EReal)
    (fl2 : S16x1.Idx → EReal) (w3 : S3x16.Idx → EReal) (b3 : S3x1.Idx → EReal) (wt : S1x3.Idx → EReal)
    (cc : Fin 3) (r : Fin 1048576) :
    Arr.arrayFn xT w1 fl1 w2 fl2 w3 b3 wt (ix2 cc r)
      = logSoftmaxW (fun k => wt (ix2 (0 : Fin 1) k))
          (affine (fun a k => w3 (ix2 a k)) (fun a => b3 (ix2 a (0 : Fin 1)))
            (floorLinear (fun k j => w2 (ix2 k j)) (fun k => fl2 (ix2 k (0 : Fin 1)))
              (floorLinear (fun j i => w1 (ix2 j i)) (fun j => fl1 (ix2 j (0 : Fin 1))) (fun i => xT (ix2 i r))))) cc := rfl

/-- The specification's array at an entry. -/
theorem classesByRows_at (x : (⟨2, ![1048576, 8]⟩ : Shape).Idx → EReal) (w1 : (⟨2, ![32, 8]⟩ : Shape).Idx → EReal)
    (b1 : (⟨2, ![32, 1]⟩ : Shape).Idx → EReal) (w2 : (⟨2, ![16, 32]⟩ : Shape).Idx → EReal)
    (b2 : (⟨2, ![16, 1]⟩ : Shape).Idx → EReal) (w3 : (⟨2, ![3, 16]⟩ : Shape).Idx → EReal)
    (b3 : (⟨2, ![3, 1]⟩ : Shape).Idx → EReal) (cc : Fin 3) (r : Fin 1048576) :
    classesByRows x w1 b1 w2 b2 w3 b3 (ix2 cc r) = entry x w1 b1 w2 b2 w3 b3 cc r := rfl

/-- For real inputs the region's array is the specification's. -/
theorem arrayFn_eq (c : Dev nD)
    (hx : ∀ i, ∃ r : ℝ, A0 m c i = (r : EReal)) (hw1 : ∀ i, ∃ r : ℝ, A1 m c i = (r : EReal))
    (hb1 : ∀ i, ∃ r : ℝ, A2 m c i = (r : EReal)) (hw2 : ∀ i, ∃ r : ℝ, A3 m c i = (r : EReal))
    (hb2 : ∀ i, ∃ r : ℝ, A4 m c i = (r : EReal)) (hw3 : ∀ i, ∃ r : ℝ, A5 m c i = (r : EReal))
    (hb3 : ∀ i, ∃ r : ℝ, A6 m c i = (r : EReal)) :
    Arr.arrayFn (V m c main_v0) (V m c main_arg1) (V m c main_v6) (V m c main_arg3) (V m c main_v7) (V m c main_arg5)
        (V m c main_v4) (V m c main_v5)
      = classesByRows (A0 m c) (A1 m c) (A2 m c) (A3 m c) (A4 m c) (A5 m c) (A6 m c) := by
  funext idx
  obtain ⟨cc, r, rfl⟩ : ∃ (cc : Fin 3) (r : Fin 1048576), idx = ix2 cc r := ⟨idx 0, idx 1, eq_ix2 idx⟩
  have e0 : (fun i => (V m c main_v0 : FVec Ideal S8x1048576 .f32) (ix2 i r))
      = fun i => A0 m c (ix2 r i) := funext fun i => V_v0_apply m c i r
  have e1 : (V m c main_arg1 : FVec Ideal S32x8 .f32) = A1 m c := V_main_arg1 m c
  have e3 : (V m c main_arg3 : FVec Ideal S16x32 .f32) = A3 m c := V_main_arg3 m c
  have e5 : (V m c main_arg5 : FVec Ideal S3x16 .f32) = A5 m c := V_main_arg5 m c
  have e6 : (fun j => (V m c main_v6 : FVec Ideal S32x1 .f32) (ix2 j (0 : Fin 1)))
      = fun j => -(A2 m c (ix2 j (0 : Fin 1))) := funext (V_v6_apply m c)
  have e7 : (fun k => (V m c main_v7 : FVec Ideal S16x1 .f32) (ix2 k (0 : Fin 1)))
      = fun k => (-(affine (fun k j => A3 m c (ix2 k j)) (fun k => A4 m c (ix2 k (0 : Fin 1)))
          (fun j => A2 m c (ix2 j (0 : Fin 1))) k) : EReal) := funext (V_v7_apply m c)
  have e4 : (fun cc => (V m c main_v4 : FVec Ideal S3x1 .f32) (ix2 cc (0 : Fin 1)))
      = affine (fun a k => A5 m c (ix2 a k)) (fun a => A6 m c (ix2 a (0 : Fin 1)))
          (affine (fun k j => A3 m c (ix2 k j)) (fun k => A4 m c (ix2 k (0 : Fin 1))) (fun j => A2 m c (ix2 j (0 : Fin 1)))) :=
    funext (V_v4_apply m c)
  rw [arrayFn_at, classesByRows_at]
  unfold entry
  rw [logSoftmaxW_one _ (V_v5_apply m c), e0, e1, e3, e5, e6, e7, e4]
  congr 1
  funext a
  exact (logits_folded_of_real _ _ _ _ _ _ _ (fun j i => hw1 _) (fun j => hb1 _) (fun k j => hw2 _) (fun k => hb2 _)
    (fun a k => hw3 _) (fun a => hb3 _) (fun i => hx _) a).symm

/-- The result buffer after the host's last line: the transpose of the region's array. -/
theorem tail_v9 (c : Dev nD) :
    Pipeline.afterTail₀ cfgs (dats m) 0 (V0 m) [hostOps1] c main_v9
      = (transpose S1048576x3 [1, 0] ((dats m 0 c).arrAt 8 cfg0.N) transposes_S3x1048576_S1048576x3_1_0 : FVec Ideal S1048576x3 .f32) := by
  unfold Pipeline.afterTail₀
  show StableHlo.after hostOps1 _ (Proc.devRef .tc main_v9) = _
  after_results
  exact congrArg (fun z => transpose S1048576x3 [1, 0] z transposes_S3x1048576_S1048576x3_1_0)
    (Pipeline.withArrays_arr spec0 launch0.win.arr_inj c _ _ 8)

/-- THE RUN, with the result named: under the precondition every weakly fair execution terminates with the result
    buffer at the transposed specification array and the arguments unchanged. -/
theorem run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v9)
        = (transpose S1048576x3 [1, 0] (classesByRows (A0 m c) (A1 m c) (A2 m c) (A3 m c) (A4 m c) (A5 m c) (A6 m c))
            transposes_S3x1048576_S1048576x3_1_0 : FVec Ideal S1048576x3 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨hx, hw1, hb1, hw2, hb2, hw3, hb3⟩ := Cert.FiniteInputs.all_real _ _ _ _ _ _ _ (hpre c)
  refine ⟨?_, (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩
  refine ((h c).2 main_v9 (Pipeline.mem_restRefs_of main_v9 (by decide) (by decide))).trans ?_
  rw [tail_v9, Arr.final8, arrayFn_eq m c hx hw1 hb1 hw2 hb2 hw3 hb3]

end Cert.KernelIdeal.Result

end
-- ==== Proof.RefPayload.lean ====
/-
  The reference's block computation read at one entry.

  At each grid point the body turns a block of 8192 input rows into a [3, 8192] block: three dense layers (the first
  contracting the second axis of BOTH of its operands, so that rows of the input become columns of the result), a
  rectifier after the first two, and a log-softmax down each column.  Read at the entry (c, q) the block is the
  specification's log-softmax of the logits of the block's row q, at class c.
-/
import proofs.«181966_g2000401451430501_pallasbulk_762_29_alg».proof.Proof.Gen.ReferenceIdeal.Skeleton
import proofs.«181966_g2000401451430501_pallasbulk_762_29_alg».proof.Proof.MlpSpec
import proofs.«181966_g2000401451430501_pallasbulk_762_29_alg».proof.Proof.LibDenseLayers
import Idealize.ShloMosaic.PureOps.Ideal.Laws
import Idealize.ShloMosaic.Lib.ValueIdx
import Idealize.ShloMosaic.Lib.ValueLayout

noncomputable section

namespace Cert.ReferenceIdeal.RefValue

open Cert.ReferenceIdeal Cert.ReferenceIdeal.Gen Idealize.ShloMosaic Idealize.ShloMosaic.ValueIdx
open Idealize.ShloMosaic.DenseLayers Cert.MlpSpec

/-! ## Two further operations read at an entry: a product contracting both second axes, and a sum over the rows -/

/-- A product of an [m, k] by an [n, k] matrix contracting the second axis of both, into a zero accumulator, read at
    (a, b): the sum over the contracted coordinate of A (a, c) * B (b, c). -/
theorem matmul_rowrow_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The sum over the rows, column by column. -/
theorem sumOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction (F := Ideal) .add [0] ⟨1, ![b]⟩ src acc h hφ hacc (ix1 q) = ∑ k : Fin a, src (ix2 k q) := by
  rw [Ideal.multiReduction_add_single]
  refine Finset.sum_congr rfl fun k _ => ?_
  congr 1
  funext ax; apply Fin.ext
  match ax with
  | ⟨0, _⟩ => rfl
  | ⟨1, _⟩ => rfl

/-! ## The block computation, stage by stage -/

/-- The first hidden layer as a [32, 8192] block: column q is the rectified first layer of the block's row q. -/
def hidden1 (x : FVec Ideal S8192x8 .f32) (w1 : FVec Ideal S32x8 .f32) (b1 : FVec Ideal S32x1 .f32) : FVec Ideal S32x8192 .f32 :=
  maximumf
    (addf (matmul dot_S32x8_S8192x8_S32x8192_1_1_0_0_n_n none w1 x (constant (F := Ideal) S32x8192 .f32 0x00000000#32))
      (broadcastTo S32x8192 b1 broadcasts_S32x1_S32x8192))
    (broadcast S32x8192 (Scalar.ofBits (F := Ideal) .f32 0x00000000#32))

/-- The second hidden layer as a [16, 8192] block, from the first. -/
def hidden2 (h1 : FVec Ideal S32x8192 .f32) (w2 : FVec Ideal S16x32 .f32) (b2 : FVec Ideal S16x1 .f32) : FVec Ideal S16x8192 .f32 :=
  maximumf
    (addf (matmul dot_S16x32_S32x8192_S16x8192_1_0_0_1_n_n none w2 h1 (constant (F := Ideal) S16x8192 .f32 0x00000000#32))
      (broadcastTo S16x8192 b2 broadcasts_S16x1_S16x8192))
    (broadcast S16x8192 (Scalar.ofBits (F := Ideal) .f32 0x00000000#32))

/-- The logits as a [3, 8192] block, from the second hidden layer. -/
def logitsBlock (h2 : FVec Ideal S16x8192 .f32) (w3 : FVec Ideal S3x16 .f32) (b3 : FVec Ideal S3x1 .f32) : FVec Ideal S3x8192 .f32 :=
  addf (matmul dot_S3x16_S16x8192_S3x8192_1_0_0_1_n_n none w3 h2 (constant (F := Ideal) S3x8192 .f32 0x00000000#32))
    (broadcastTo S3x8192 b3 broadcasts_S3x1_S3x8192)

/-- Each column's largest logit, copied down the column. -/
def colMax (lg : FVec Ideal S3x8192 .f32) : FVec Ideal S3x8192 .f32 :=
  broadcastTo S3x8192
    (shapeCast S1x8192 (multiReduction (F := Ideal) .maximumf [0] S8192 lg 0xFF800000#32 reduces_S3x8192_S8192 (.inl rfl) rfl)
      shapeCasts_S8192_S1x8192)
    broadcasts_S1x8192_S3x8192

/-- The logits with their column's maximum subtracted. -/
def shiftedBlock (lg : FVec Ideal S3x8192 .f32) : FVec Ideal S3x8192 .f32 := subf lg (colMax lg)

/-- The logarithm of each column's sum of exponentials of the shifted logits, copied down the column. -/
def colLogSumExp (lg : FVec Ideal S3x8192 .f32) : FVec Ideal S3x8192 .f32 :=
  broadcastTo S3x8192
    (log (shapeCast S1x8192
      (multiReduction (F := Ideal) .add [0] S8192 (exp (shiftedBlock lg)) 0x00000000#32 reduces_S3x8192_S8192 (.inl rfl) rfl)
      shapeCasts_S8192_S1x8192))
    broadcasts_S1x8192_S3x8192

/-- The log-softmax down each column. -/
def logSoftmaxBlock (lg : FVec Ideal S3x8192 .f32) : FVec Ideal S3x8192 .f32 := subf (shiftedBlock lg) (colLogSumExp lg)

/-- The body's stored value is the composition of these stages. -/
theorem payload_eq_stages (x : FVec Ideal S8192x8 .f32) (w1 : FVec Ideal S32x8 .f32) (b1 : FVec Ideal S32x1 .f32)
    (w2 : FVec Ideal S16x32 .f32) (b2 : FVec Ideal S16x1 .f32) (w3 : FVec Ideal S3x16 .f32) (b3 : FVec Ideal S3x1 .f32) :
    k0_pay1 (F := Ideal) x w1 b1 w2 b2 w3 b3 = logSoftmaxBlock (logitsBlock (hidden2 (hidden1 x w1 b1) w2 b2) w3 b3) := rfl

/-! ## Each stage read at an entry -/

theorem hidden1_apply (x : FVec Ideal S8192x8 .f32) (w1 : FVec Ideal S32x8 .f32) (b1 : FVec Ideal S32x1 .f32)
    (j : Fin 32) (q : Fin 8192) :
    hidden1 x w1 b1 (ix2 j q)
      = rectAffine (fun j i => w1 (ix2 j i)) (fun j => b1 (ix2 j (0 : Fin 1))) (fun i => x (ix2 q i)) j := by
  unfold hidden1 rectAffine
  rw [maximumf_apply, addf_apply, broadcast_apply]
  rw [show Scalar.ofBits (F := Ideal) .f32 0x00000000#32 = 0 from Ideal.ofBits_zero_f32]
  exact congrArg₂ (fun a b => max (a + b) 0)
    (matmul_rowrow_zero_apply dot_S32x8_S8192x8_S32x8192_1_1_0_0_n_n_wf none w1 x j q)
    (broadcastTo_column_apply b1 broadcasts_S32x1_S32x8192 j q)

theorem hidden2_apply (h1 : FVec Ideal S32x8192 .f32) (w2 : FVec Ideal S16x32 .f32) (b2 : FVec Ideal S16x1 .f32)
    (k : Fin 16) (q : Fin 8192) :
    hidden2 h1 w2 b2 (ix2 k q)
      = rectAffine (fun k j => w2 (ix2 k j)) (fun k => b2 (ix2 k (0 : Fin 1))) (fun j => h1 (ix2 j q)) k := by
  unfold hidden2 rectAffine
  rw [maximumf_apply, addf_apply, broadcast_apply]
  rw [show Scalar.ofBits (F := Ideal) .f32 0x00000000#32 = 0 from Ideal.ofBits_zero_f32]
  exact congrArg₂ (fun a b => max (a + b) 0)
    (matmul_rowcol_zero_apply dot_S16x32_S32x8192_S16x8192_1_0_0_1_n_n_wf none w2 h1 k q)
    (broadcastTo_column_apply b2 broadcasts_S16x1_S16x8192 k q)

theorem logitsBlock_apply (h2 : FVec Ideal S16x8192 .f32) (w3 : FVec Ideal S3x16 .f32) (b3 : FVec Ideal S3x1 .f32)
    (c : Fin 3) (q : Fin 8192) :
    logitsBlock h2 w3 b3 (ix2 c q)
      = affine (fun c k => w3 (ix2 c k)) (fun c => b3 (ix2 c (0 : Fin 1))) (fun k => h2 (ix2 k q)) c := by
  unfold logitsBlock affine
  rw [addf_apply]
  exact congrArg₂ (fun a b => a + b)
    (matmul_rowcol_zero_apply dot_S3x16_S16x8192_S3x8192_1_0_0_1_n_n_wf none w3 h2 c q)
    (broadcastTo_column_apply b3 broadcasts_S3x1_S3x8192 c q)

theorem colMax_apply (lg : FVec Ideal S3x8192 .f32) (c : Fin 3) (q : Fin 8192) :
    colMax lg (ix2 c q) = rowMax (fun c => lg (ix2 c q)) := by
  unfold colMax rowMax
  exact (broadcastTo_1b_ab_apply _ broadcasts_S1x8192_S3x8192 c q).trans
    ((shapeCast_a_1a_apply _ shapeCasts_S8192_S1x8192 (0 : Fin 1) q).trans
      (maxOverRows_apply lg 0xFF800000#32 reduces_S3x8192_S8192 (.inl rfl) rfl q))

theorem shiftedBlock_apply (lg : FVec Ideal S3x8192 .f32) (c : Fin 3) (q : Fin 8192) :
    shiftedBlock lg (ix2 c q) = shifted (fun c => lg (ix2 c q)) c := by
  unfold shiftedBlock shifted
  rw [subf_apply, colMax_apply]

theorem colLogSumExp_apply (lg : FVec Ideal S3x8192 .f32) (c : Fin 3) (q : Fin 8192) :
    colLogSumExp lg (ix2 c q) = Ideal.log (∑ k : Fin 3, Ideal.exp (shifted (fun c => lg (ix2 c q)) k)) := by
  unfold colLogSumExp
  refine (broadcastTo_1b_ab_apply _ broadcasts_S1x8192_S3x8192 c q).trans ?_
  show Ideal.log (shapeCast S1x8192 _ shapeCasts_S8192_S1x8192 (ix2 (0 : Fin 1) q)) = _
  refine congrArg Ideal.log ?_
  refine (shapeCast_a_1a_apply _ shapeCasts_S8192_S1x8192 (0 : Fin 1) q).trans ?_
  refine (sumOverRows_apply (exp (shiftedBlock lg)) 0x00000000#32 reduces_S3x8192_S8192 (.inl rfl) rfl q).trans ?_
  refine Finset.sum_congr rfl fun k _ => ?_
  show Ideal.exp (shiftedBlock lg (ix2 k q)) = _
  rw [shiftedBlock_apply]

theorem logSoftmaxBlock_apply (lg : FVec Ideal S3x8192 .f32) (c : Fin 3) (q : Fin 8192) :
    logSoftmaxBlock lg (ix2 c q) = logSoftmax (fun c => lg (ix2 c q)) c := by
  unfold logSoftmaxBlock logSoftmax
  rw [subf_apply, shiftedBlock_apply, colLogSumExp_apply]

/-! ## The stored block at an entry -/

/-- The body's stored block at (c, q): the log-softmax, at class c, of the three layers applied to the block's row q. -/
theorem payload_apply (x : FVec Ideal S8192x8 .f32) (w1 : FVec Ideal S32x8 .f32) (b1 : FVec Ideal S32x1 .f32)
    (w2 : FVec Ideal S16x32 .f32) (b2 : FVec Ideal S16x1 .f32) (w3 : FVec Ideal S3x16 .f32) (b3 : FVec Ideal S3x1 .f32)
    (c : Fin 3) (q : Fin 8192) :
    k0_pay1 (F := Ideal) x w1 b1 w2 b2 w3 b3 (ix2 c q)
      = logSoftmax
          (affine (fun c k => w3 (ix2 c k)) (fun c => b3 (ix2 c (0 : Fin 1)))
            (rectAffine (fun k j => w2 (ix2 k j)) (fun k => b2 (ix2 k (0 : Fin 1)))
              (rectAffine (fun j i => w1 (ix2 j i)) (fun j => b1 (ix2 j (0 : Fin 1))) (fun i => x (ix2 q i))))) c := by
  rw [payload_eq_stages, logSoftmaxBlock_apply]
  refine congrArg (fun lg => logSoftmax lg c) ?_
  funext c'
  rw [logitsBlock_apply]
  refine congrArg (fun h => affine (fun c k => w3 (ix2 c k)) (fun c => b3 (ix2 c (0 : Fin 1))) h c') ?_
  funext k
  rw [hidden2_apply]
  refine congrArg (fun h => rectAffine (fun k j => w2 (ix2 k j)) (fun k => b2 (ix2 k (0 : Fin 1))) h k) ?_
  funext j
  rw [hidden1_apply]

end Cert.ReferenceIdeal.RefValue

end
-- ==== Proof.RefArray.lean ====
/-
  From the blocks to the array.

  Grid point t reads rows 8192 t … 8192 t + 8191 of the input and the whole of every weight and bias, and writes back
  columns 8192 t … 8192 t + 8191 of the [3, 1048576] result.  What it writes back is that block of columns of the
  specification's array; the 128 blocks tile the columns, so after the last point the result array is the specification's.
-/
import proofs.«181966_g2000401451430501_pallasbulk_762_29_alg».proof.Proof.Gen.ReferenceIdeal.Frame
import proofs.«181966_g2000401451430501_pallasbulk_762_29_alg».proof.Proof.RefPayload
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-! ## Where each window's block sits, decided over the 128 grid points -/

/-- The input's block at point t starts at block row t. -/
theorem index_rows : ∀ t : Fin cfg0.N, win0_0.index t (0 : Fin 2) = t.val ∧ win0_0.index t (1 : Fin 2) = 0 :=
  (by decide +kernel : ∀ t : Fin grid0.N, _)
/-- The result's block at point t starts at block column t. -/
theorem index_cols : ∀ t : Fin cfg0.N, win0_7.index t (0 : Fin 2) = 0 ∧ win0_7.index t (1 : Fin 2) = t.val :=
  (by decide +kernel : ∀ t : Fin grid0.N, _)
/-- Every weight and bias window stays at block (0, 0). -/
theorem index_whole1 : ∀ t : Fin cfg0.N, win0_1.index t (0 : Fin 2) = 0 ∧ win0_1.index t (1 : Fin 2) = 0 :=
  (by decide +kernel : ∀ t : Fin grid0.N, _)
theorem index_whole2 : ∀ t : Fin cfg0.N, win0_2.index t (0 : Fin 2) = 0 ∧ win0_2.index t (1 : Fin 2) = 0 :=
  (by decide +kernel : ∀ t : Fin grid0.N, _)
theorem index_whole3 : ∀ t : Fin cfg0.N, win0_3.index t (0 : Fin 2) = 0 ∧ win0_3.index t (1 : Fin 2) = 0 :=
  (by decide +kernel : ∀ t : Fin grid0.N, _)
theorem index_whole4 : ∀ t : Fin cfg0.N, win0_4.index t (0 : Fin 2) = 0 ∧ win0_4.index t (1 : Fin 2) = 0 :=
  (by decide +kernel : ∀ t : Fin grid0.N, _)
theorem index_whole5 : ∀ t : Fin cfg0.N, win0_5.index t (0 : Fin 2) = 0 ∧ win0_5.index t (1 : Fin 2) = 0 :=
  (by decide +kernel : ∀ t : Fin grid0.N, _)
theorem index_whole6 : ∀ t : Fin cfg0.N, win0_6.index t (0 : Fin 2) = 0 ∧ win0_6.index t (1 : Fin 2) = 0 :=
  (by decide +kernel : ∀ t : Fin grid0.N, _)

/-! ## The input windows' blocks as parts of the argument arrays -/

/-- The input's block at point t is rows 8192 t … of the argument. -/
theorem inputRows_apply (c : Dev nD) (t : Fin cfg0.N) (q : Fin 8192) (i : Fin 8) (r : Fin 1048576)
    (hr : r.val = t.val * 8192 + q.val) :
    (iblk m c 0 t : FVec Ideal S8192x8 .f32) (ix2 q i)
      = (m ((c : Thread nD τ).loc main_arg0) : S1048576x8.Idx → EReal) (ix2 r i) := by
  obtain ⟨e0, e1⟩ := index_rows t
  unfold iblk
  rw [View.read_apply]
  show V m c main_arg0 _ = _
  rw [V_main_arg0]
  congr 1
  funext a
  apply Fin.ext
  match a with
  | ⟨0, _⟩ => show win0_0.index t (0 : Fin 2) * 8192 + 1 * q.val = r.val; rw [e0, hr]; omega
  | ⟨1, _⟩ => show win0_0.index t (1 : Fin 2) * 8 + 1 * i.val = i.val; rw [e1]; omega

/-- Window 1's block at every point is the whole of its array. -/
theorem firstWeights_block (c : Dev nD) (t : Fin cfg0.N) :
    (iblk m c 1 t : FVec Ideal S32x8 .f32) = (m ((c : Thread nD τ).loc main_arg1) : S32x8.Idx → EReal) := by
  obtain ⟨e0, e1⟩ := index_whole1 t
  funext y
  unfold iblk
  rw [View.read_apply]
  show V m c main_arg1 _ = _
  rw [V_main_arg1]
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 8 + 1 * (y 1).val = (y 1).val; rw [e1]; omega

/-- Window 2's block at every point is the whole of its array. -/
theorem firstBias_block (c : Dev nD) (t : Fin cfg0.N) :
    (iblk m c 2 t : FVec Ideal S32x1 .f32) = (m ((c : Thread nD τ).loc main_arg2) : S32x1.Idx → EReal) := by
  obtain ⟨e0, e1⟩ := index_whole2 t
  funext y
  unfold iblk
  rw [View.read_apply]
  show V m c main_arg2 _ = _
  rw [V_main_arg2]
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 1 + 1 * (y 1).val = (y 1).val; rw [e1]; omega

/-- Window 3's block at every point is the whole of its array. -/
theorem secondWeights_block (c : Dev nD) (t : Fin cfg0.N) :
    (iblk m c 3 t : FVec Ideal S16x32 .f32) = (m ((c : Thread nD τ).loc main_arg3) : S16x32.Idx → EReal) := by
  obtain ⟨e0, e1⟩ := index_whole3 t
  funext y
  unfold iblk
  rw [View.read_apply]
  show V m c main_arg3 _ = _
  rw [V_main_arg3]
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 32 + 1 * (y 1).val = (y 1).val; rw [e1]; omega

/-- Window 4's block at every point is the whole of its array. -/
theorem secondBias_block (c : Dev nD) (t : Fin cfg0.N) :
    (iblk m c 4 t : FVec Ideal S16x1 .f32) = (m ((c : Thread nD τ).loc main_arg4) : S16x1.Idx → EReal) := by
  obtain ⟨e0, e1⟩ := index_whole4 t
  funext y
  unfold iblk
  rw [View.read_apply]
  show V m c main_arg4 _ = _
  rw [V_main_arg4]
  congr 1
  funext a
  apply Fin.ext
  match a with
  | ⟨0, _⟩ => show win0_4.index t (0 : Fin 2) * 16 + 1 * (y 0).val = (y 0).val; rw [e0]; omega
  | ⟨1, _⟩ => show win0_4.index t (1 : Fin 2) * 1 + 1 * (y 1).val = (y 1).val; rw [e1]; omega

/-- Window 5's block at every point is the whole of its array. -/
theorem thirdWeights_block (c : Dev nD) (t : Fin cfg0.N) :
    (iblk m c 5 t : FVec Ideal S3x16 .f32) = (m ((c : Thread nD τ).loc main_arg5) : S3x16.Idx → EReal) := by
  obtain ⟨e0, e1⟩ := index_whole5 t
  funext y
  unfold iblk
  rw [View.read_apply]
  show V m c main_arg5 _ = _
  rw [V_main_arg5]
  congr 1
  funext a
  apply Fin.ext
  match a with
  | ⟨0, _⟩ => show win0_5.index t (0 : Fin 2) * 3 + 1 * (y 0).val = (y 0).val; rw [e0]; omega
  | ⟨1, _⟩ => show win0_5.index t (1 : Fin 2) * 16 + 1 * (y 1).val = (y 1).val; rw [e1]; omega

/-- Window 6's block at every point is the whole of its array. -/
theorem thirdBias_block (c : Dev nD) (t : Fin cfg0.N) :
    (iblk m c 6 t : FVec Ideal S3x1 .f32) = (m ((c : Thread nD τ).loc main_arg6) : S3x1.Idx → EReal) := by
  obtain ⟨e0, e1⟩ := index_whole6 t
  funext y
  unfold iblk
  rw [View.read_apply]
  show V m c main_arg6 _ = _
  rw [V_main_arg6]
  congr 1
  funext a
  apply Fin.ext
  match a with
  | ⟨0, _⟩ => show win0_6.index t (0 : Fin 2) * 3 + 1 * (y 0).val = (y 0).val; rw [e0]; omega
  | ⟨1, _⟩ => show win0_6.index t (1 : Fin 2) * 1 + 1 * (y 1).val = (y 1).val; rw [e1]; omega

/-! ## One point's block of the result -/

/-- A [3, 8192] block computed from 8192 rows that are rows n · 8192 … of an input array is columns n · 8192 … of
    the specification's array. -/
theorem block_entry (X : S1048576x8.Idx → EReal) (x : FVec Ideal S8192x8 .f32) (w1 : FVec Ideal S32x8 .f32)
    (b1 : FVec Ideal S32x1 .f32) (w2 : FVec Ideal S16x32 .f32) (b2 : FVec Ideal S16x1 .f32) (w3 : FVec Ideal S3x16 .f32)
    (b3 : FVec Ideal S3x1 .f32) (cl : Fin 3) (q : Fin 8192) (r : Fin 1048576)
    (hx : ∀ i : Fin 8, x (ix2 q i) = X (ix2 r i)) :
    k0_pay1 (F := Ideal) x w1 b1 w2 b2 w3 b3 (ix2 cl q) = classesByRows X w1 b1 w2 b2 w3 b3 (ix2 cl r) := by
  rw [payload_apply]
  show _ = entry X w1 b1 w2 b2 w3 b3 cl r
  unfold entry
  rw [show (fun i => x (ix2 q i)) = fun i => X (ix2 r i) from funext hx]

/-- What point t writes back is its block of columns of the specification's array. -/
theorem flushed_eq (c : Dev nD) (t : Fin cfg0.N) :
    (dats m 0 c).flushed 7 t = ((cfg0.win 7).blk t).view.read (Elt Ideal)
      (classesByRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 7).cut (grid0.coords t) ((dats m 0 c).after 7 t) = _
  rw [after0_7]
  unfold out0_7
  rw [View.canon_unit_zero zeroOffsets]
  simp only [View.ld_unit_zero (S := S8192x8) zeroOffsets, View.ld_unit_zero (S := S32x8) zeroOffsets,
    View.ld_unit_zero (S := S32x1) zeroOffsets, View.ld_unit_zero (S := S16x32) zeroOffsets,
    View.ld_unit_zero (S := S16x1) zeroOffsets, View.ld_unit_zero (S := S3x16) zeroOffsets,
    View.ld_unit_zero (S := S3x1) zeroOffsets]
  rw [firstWeights_block m c t, firstBias_block m c t, secondWeights_block m c t, secondBias_block m c t,
    thirdWeights_block m c t, thirdBias_block m c t]
  obtain ⟨e0, e1⟩ := index_cols t
  have hN : cfg0.N = 128 := N_0
  have ht : t.val < 128 := by have := t.isLt; omega
  funext y
  have hy0 : (y 0).val < 3 := (y 0).isLt
  have hy1 : (y 1).val < 8192 := (y 1).isLt
  have hxi : (win0 7).xinj (grid0.coords t) y = ix2 (⟨(y 0).val, hy0⟩ : Fin 3) (⟨(y 1).val, hy1⟩ : Fin 8192) := by
    funext a
    match a with
    | ⟨0, _⟩ => rfl
    | ⟨1, _⟩ => rfl
  have hemb : ((View.whole main_v0).slice ((win0 7).rect t)).emb y
      = ix2 (⟨(y 0).val, hy0⟩ : Fin 3) (⟨t.val * 8192 + (y 1).val, by omega⟩ : Fin 1048576) := by
    funext a
    apply Fin.ext
    match a with
    | ⟨0, _⟩ => show win0_7.index t (0 : Fin 2) * 3 + 1 * (y 0).val = (y 0).val; rw [e0]; omega
    | ⟨1, _⟩ => show win0_7.index t (1 : Fin 2) * 8192 + 1 * (y 1).val = t.val * 8192 + (y 1).val; rw [e1]; omega
  show k0_pay1 (F := Ideal) _ _ _ _ _ _ _ ((win0 7).xinj (grid0.coords t) y)
    = classesByRows _ _ _ _ _ _ _ (((View.whole main_v0).slice ((win0 7).rect t)).emb y)
  rw [hxi, hemb]
  exact block_entry (m ((c : Thread nD τ).loc main_arg0)) (iblk m c 0 t) _ _ _ _ _ _ _ _ _
    (fun i => inputRows_apply m c t _ i _ rfl)

/-! ## The blocks tile the columns -/

/-- An index of the result is in point t's block iff each coordinate is in the block's range on its axis. -/
theorem mem_block (t : Fin cfg0.N) (i : S3x1048576.Idx) :
    i ∈ ((cfg0.win 7).blk t).view.set
      ↔ ∀ a : Fin 2, win0_7.index t a * S3x8192.size a ≤ (i a).val ∧ (i a).val < win0_7.index t a * S3x8192.size a + S3x8192.size a := by
  show i ∈ ((View.whole main_v0).slice (win0_7.rect t)).set ↔ _
  rw [View.set_slice_whole, Rect.mem_set_unit]
  exact Iff.rfl

/-- Column r of the result is written back by point r / 8192. -/
theorem cover (i : S3x1048576.Idx) :
    ∃ t : Fin cfg0.N, (cfg0.win 7).flush t = true ∧ i ∈ ((cfg0.win 7).blk t).view.set := by
  have hi0 : (i 0).val < 3 := (i 0).isLt
  have hi1 : (i 1).val < 1048576 := (i 1).isLt
  have hN : cfg0.N = 128 := N_0
  have hlt : (i 1).val / 8192 < cfg0.N := by omega
  obtain ⟨e0, e1⟩ := index_cols ⟨(i 1).val / 8192, hlt⟩
  refine ⟨⟨(i 1).val / 8192, hlt⟩, flush0_7 _, ?_⟩
  rw [mem_block]
  intro a
  match a with
  | ⟨0, _⟩ =>
    show win0_7.index ⟨(i 1).val / 8192, hlt⟩ (0 : Fin 2) * 3 ≤ (i 0).val
      ∧ (i 0).val < win0_7.index ⟨(i 1).val / 8192, hlt⟩ (0 : Fin 2) * 3 + 3
    rw [e0]; omega
  | ⟨1, _⟩ =>
    show win0_7.index ⟨(i 1).val / 8192, hlt⟩ (1 : Fin 2) * 8192 ≤ (i 1).val
      ∧ (i 1).val < win0_7.index ⟨(i 1).val / 8192, hlt⟩ (1 : Fin 2) * 8192 + 8192
    rw [e1]
    show (i 1).val / 8192 * 8192 ≤ (i 1).val ∧ (i 1).val < (i 1).val / 8192 * 8192 + 8192
    omega

/-! ## The result array after the run -/

/-- After the last grid point the result array is the specification's array of the argument arrays. -/
theorem array_eq (m : (ℓ : Loc nD τ sig) → Buf (Elt Ideal) ℓ) (c : Dev nD) :
    (Cert.ReferenceIdeal.Gen.dats (F := Ideal) m 0 c).arrAt 7 Cert.ReferenceIdeal.cfg0.N
      = Cert.MlpSpec.classesByRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

end Cert.ReferenceIdeal.RefValue

end
-- ==== Proof.RefRun.lean ====
/-
  The reference's run with its result named.

  After the one region the host transposes the [3, 1048576] array into the [1048576, 3] result.  The region leaves the
  specification's array (classes by rows), so the result is its transpose, and the seven argument arrays are as launched.
-/
import proofs.«181966_g2000401451430501_pallasbulk_762_29_alg».proof.Proof.Gen.ReferenceIdeal.Frame
import proofs.«181966_g2000401451430501_pallasbulk_762_29_alg».proof.Proof.RefArray
import Idealize.ShloMosaic.Lib.StableHlo.Run
import Idealize.ShloMosaic.Lib.Pipeline.FrameSuffix

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.MlpSpec
open Idealize.ShloMosaic.Pipeline (Dat)

/-- What the transposed result buffer holds after the host line that follows the region: the transpose of the
    specification's array. -/
theorem transposed_eq (m : (ℓ : Loc nD τ sig) → Buf (Elt Ideal) ℓ) (c : Dev nD) :
    Pipeline.afterTail₀ cfgs (dats (F := Ideal) m) 0 (V0 m) [hostOps1] c main_v1
      = transpose S1048576x3 [1, 0] (classesByRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) transposes_S3x1048576_S1048576x3_1_0 := by
  unfold Pipeline.afterTail₀
  show StableHlo.after hostOps1 _ (Proc.devRef .tc main_v1) = _
  after_results
  refine congrArg (fun A => transpose S1048576x3 [1, 0] A transposes_S3x1048576_S1048576x3_1_0) ?_
  exact (Pipeline.withArrays_arr spec0 launch0.win.arr_inj c _ _ 7).trans (array_eq m c)

/-- The run: every weakly fair execution ends with the result buffer at the transpose of the specification's array of
    the argument arrays, and the argument arrays unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v1)
        = transpose S1048576x3 [1, 0] (classesByRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) transposes_S3x1048576_S1048576x3_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v1 (Pipeline.mem_restRefs_of main_v1 (by decide) (by decide))).trans (transposed_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.RefValue

end
-- ==== Proof.lean ====
/-
  The certificate: a fused three-layer perceptron with a log-softmax, computed two ways.

  Both programs map each of 1048576 input rows `x ∈ ℝ⁸` to the log-softmax of the three logits
  `W₃ relu (W₂ relu (W₁ x + b₁) + b₂) + b₃`, each in one pipelined region that leaves a `[3, 1048576]` array (classes by
  rows), followed by a host transpose.  The reference stages 8192 input rows per grid point and evaluates the layers as
  written.  The kernel stages 131072 columns of the TRANSPOSED input per grid point, handles them as four tiles, and
  evaluates the layers with the biases moved into the following layer (`relu (s + b) = max s (-b) + b`), the moved
  biases computed once on the host; it sums the exponentials as a matrix product with a row of ones.

  At the ideal values both arrays are the specification's `classesByRows` of the seven argument arrays
  (`Cert.MlpSpec`): for the reference at every extended-real input, for the kernel at real inputs — moving a bias
  through a layer distributes a product over a sum, a law of the reals — which is what the precondition provides.
  The frames are the generated ones; the ideal pass rewrote nothing, so `preserves` is trivial.
-/
import proofs.«181966_g2000401451430501_pallasbulk_762_29_alg».proof.Defs
import proofs.«181966_g2000401451430501_pallasbulk_762_29_alg».proof.Proof.Gen.Kernel
import proofs.«181966_g2000401451430501_pallasbulk_762_29_alg».proof.Proof.Gen.Kernel.Skeleton
import proofs.«181966_g2000401451430501_pallasbulk_762_29_alg».proof.Proof.Gen.Kernel.Launch
import proofs.«181966_g2000401451430501_pallasbulk_762_29_alg».proof.Proof.Gen.Kernel.Points
import proofs.«181966_g2000401451430501_pallasbulk_762_29_alg».proof.Proof.Gen.Kernel.Frame
import proofs.«181966_g2000401451430501_pallasbulk_762_29_alg».proof.Proof.Gen.KernelIdeal
import proofs.«181966_g2000401451430501_pallasbulk_762_29_alg».proof.Proof.Gen.KernelIdeal.Skeleton
import proofs.«181966_g2000401451430501_pallasbulk_762_29_alg».proof.Proof.Gen.KernelIdeal.Launch
import proofs.«181966_g2000401451430501_pallasbulk_762_29_alg».proof.Proof.Gen.KernelIdeal.Points
import proofs.«181966_g2000401451430501_pallasbulk_762_29_alg».proof.Proof.Gen.KernelIdeal.Frame
import proofs.«181966_g2000401451430501_pallasbulk_762_29_alg».proof.Proof.Gen.ReferenceIdeal
import proofs.«181966_g2000401451430501_pallasbulk_762_29_alg».proof.Proof.Gen.ReferenceIdeal.Skeleton
import proofs.«181966_g2000401451430501_pallasbulk_762_29_alg».proof.Proof.Gen.ReferenceIdeal.Launch
import proofs.«181966_g2000401451430501_pallasbulk_762_29_alg».proof.Proof.Gen.ReferenceIdeal.Points
import proofs.«181966_g2000401451430501_pallasbulk_762_29_alg».proof.Proof.Gen.ReferenceIdeal.Frame
import proofs.«181966_g2000401451430501_pallasbulk_762_29_alg».proof.Proof.Gen.Pre_finite_inputs
import proofs.«181966_g2000401451430501_pallasbulk_762_29_alg».proof.Proof.KernelValue
import proofs.«181966_g2000401451430501_pallasbulk_762_29_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing. -/
theorem preserves : Cert.preserves_Kernel_KernelIdeal := trivial

/-- From memories agreeing on the arguments both programs end with the transposed specification array of those
    arguments in their result buffers. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
